-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16x1 .f32) (main_arg8 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x16 .f32) (main_arg6 : FVec F S16 .f32) (main_arg7 : FVec F S16x1 .f32) (main_arg8 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S100000x4 .f32) (main_arg1 : FVec F S4x64 .f32) (main_arg2 : FVec F S64 .f32) (main_arg3 : FVec F S64x32 .f32) (main_arg4 : FVec F S32 .f32) (main_arg5 : FVec F S32x16 .f32) (main_arg6 : FVec F S16 .f32) (main_arg7 : FVec F S16x1 .f32) (main_arg8 : FVec F S1 .f32) (main_arg9 : IVec S2x3200000 32) (main_arg10 : IVec S100000 32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_v13 main_v16
-- ==== Kernel.lean ====
abbrev S100000x4 : Shape := ⟨2, ![100000, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x4 : Shape := ⟨2, ![10000, 4]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S1000x16 : Shape := ⟨2, ![1000, 16]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 126
  | .vmem => 34
  | .smem => 0
  | _ => 0

abbrev bufTy : (tb : Table) → Fin (tcTables nBuf tb) → BufTy
  | .hbm, ⟨0, _⟩ => ⟨S100000x4, .f32⟩
  | .hbm, ⟨1, _⟩ => ⟨S4x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S2x3200000, .i32⟩
  | .hbm, ⟨10, _⟩ => ⟨S100000, .i32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x32, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x32, .f32⟩
  | .hbm, ⟨80, _⟩ => ⟨S3300000x1, .f32⟩
  | .hbm, ⟨81, _⟩ => ⟨S3300000x32, .f32⟩
  | .hbm, ⟨82, _⟩ => ⟨S3300000x32, .f32⟩
  | .hbm, ⟨83, _⟩ => ⟨S_, .f32⟩
  | .hbm, ⟨84, _⟩ => ⟨S100000x32, .f32⟩
  | .hbm, ⟨85, _⟩ => ⟨S3300000x1, .i32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S100000x16, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x16, .f32⟩
  | .hbm, ⟨99, _⟩ => ⟨S3300000x1, .f32⟩
  | .hbm, ⟨100, _⟩ => ⟨S3300000x16, .f32⟩
  | .hbm, ⟨101, _⟩ => ⟨S3300000x16, .f32⟩
  | .hbm, ⟨102, _⟩ => ⟨S_, .f32⟩
  | .hbm, ⟨103, _⟩ => ⟨S100000x16, .f32⟩
  | .hbm, ⟨104, _⟩ => ⟨S3300000x1, .i32⟩
  | .hbm, ⟨105, _⟩ => ⟨S100000x16, .f32⟩
  | .hbm, ⟨106, _⟩ => ⟨S1x16, .f32⟩
  | .hbm, ⟨107, _⟩ => ⟨S100000x16, .f32⟩
  | .hbm, ⟨108, _⟩ => ⟨S_, .f32⟩
  | .hbm, ⟨109, _⟩ => ⟨S1000x16, .f32⟩
  | .hbm, ⟨110, _⟩ => ⟨S100000x1, .i32⟩
  | .hbm, ⟨111, _⟩ => ⟨S1000x16, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S1000, .f32⟩
  | .hbm, ⟨116, _⟩ => ⟨S100000x1, .i32⟩
  | .hbm, ⟨117, _⟩ => ⟨S1000, .f32⟩
  | .hbm, ⟨118, _⟩ => ⟨S_, .f32⟩
  | .hbm, ⟨119, _⟩ => ⟨S1000, .f32⟩
  | .hbm, ⟨120, _⟩ => ⟨S1000, .f32⟩
  | .hbm, ⟨121, _⟩ => ⟨S1000x1, .f32⟩
  | .hbm, ⟨122, _⟩ => ⟨S1000x16, .f32⟩
  | .hbm, ⟨123, _⟩ => ⟨S1000x16, .f32⟩
  | .hbm, ⟨124, _⟩ => ⟨S1x1, .f32⟩
  | .hbm, ⟨125, _⟩ => ⟨S1000x1, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S1x16, .f32⟩
  | .local _ .vmem, ⟨28, _⟩ => ⟨S10000x16, .f32⟩
  | .local _ .vmem, ⟨29, _⟩ => ⟨S10000x16, .f32⟩
  | .local _ .vmem, ⟨30, _⟩ => ⟨S1000x16, .f32⟩
  | .local _ .vmem, ⟨31, _⟩ => ⟨S16x1, .f32⟩
  | .local _ .vmem, ⟨32, _⟩ => ⟨S1x1, .f32⟩
  | .local _ .vmem, ⟨33, _⟩ => ⟨S1000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1000x16 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S16x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1000x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  bcast_S_S1000x16 : S_.BroadcastsInDim S1000x16 (![] : Fin 0 → Fin S1000x16.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x16_0_1 : S1000x1.BroadcastsInDim S1000x16 (![0, 1] : Fin 2 → Fin S1000x16.rank)
  shapeCasts_S1_S1x1 : S1.ShapeCasts S1x1
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x4_S4x64_S10000x64_1_0_0_1_n_n_wf : DotDims.WF S10000x4 S4x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  scatter_S1000x16_S100000x1_S100000x16_1_0_0_1_wf : ScatterDims.WF S1000x16 S100000x1 S100000x16 [1] [0] [0] 1
  scatter_S1000_S100000x1_S100000_n_0_0_1_wf : ScatterDims.WF S1000 S100000x1 S100000 [] [0] [0] 1
  dot_S1000x16_S16x1_S1000x1_1_0_0_1_n_n_wf : DotDims.WF S1000x16 S16x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1000x16.size a ≤ S1000x16.size a
  hwx6_0 : ∀ i : grid6.Coords, EltTy.bits .f32 = 32 ∨ (Rect.block (s := S1000x16) S1000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x1.size a ≤ S16x1.size a
  hwx6_1 : ∀ i : grid6.Coords, EltTy.bits .f32 = 32 ∨ (Rect.block (s := S16x1) S16x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1000x1.size a ≤ S1000x1.size a
  hwx6_3 : ∀ i : grid6.Coords, EltTy.bits .f32 = 32 ∨ (Rect.block (s := S1000x1) S1000x1.size (cc6_transform_3 i) (hinb6_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def scatter_S1000x16_S100000x1_S100000x16_1_0_0_1 : ScatterDims S1000x16 S100000x1 S100000x16 where
  updateWindowDims := [1]
  insertedWindowDims := [0]
  scatterDimsToOperandDims := [0]
  indexVectorDim := 1
  wf := scatter_S1000x16_S100000x1_S100000x16_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x16_S16x1_S1000x1_1_0_0_1_n_n : DotDims S1000x16 S16x1 S1000x1 where
  lhsContracting := [1]
  rhsContracting := [0]
  lhsNonContracting := [0]
  rhsNonContracting := [1]
  lhsBatch := []
  rhsBatch := []
  wf := dot_S1000x16_S16x1_S1000x1_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S1000x16.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S16x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1000x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x4 : Shape := ⟨2, ![100000, 4]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S1000x16 : Shape := ⟨2, ![1000, 16]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x4, .f32⟩
  | 1 => ⟨S4x64, .f32⟩
  | 2 => ⟨S64, .f32⟩
  | 3 => ⟨S64x32, .f32⟩
  | 4 => ⟨S32, .f32⟩
  | 5 => ⟨S32x16, .f32⟩
  | 6 => ⟨S16, .f32⟩
  | 7 => ⟨S16x1, .f32⟩
  | 8 => ⟨S1, .f32⟩
  | 9 => ⟨S2x3200000, .i32⟩
  | 10 => ⟨S100000, .i32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x64, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x64, .f32⟩
  | 61 => ⟨S3300000x1, .f32⟩
  | 62 => ⟨S3300000x64, .f32⟩
  | 63 => ⟨S3300000x64, .f32⟩
  | 64 => ⟨S_, .f32⟩
  | 65 => ⟨S100000x64, .f32⟩
  | 66 => ⟨S3300000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x32, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x32, .f32⟩
  | 84 => ⟨S3300000x1, .f32⟩
  | 85 => ⟨S3300000x32, .f32⟩
  | 86 => ⟨S3300000x32, .f32⟩
  | 87 => ⟨S_, .f32⟩
  | 88 => ⟨S100000x32, .f32⟩
  | 89 => ⟨S3300000x1, .i32⟩
  | 90 => ⟨S100000x32, .f32⟩
  | 91 => ⟨S1x32, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S100000x16, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x16, .f32⟩
  | 107 => ⟨S3300000x1, .f32⟩
  | 108 => ⟨S3300000x16, .f32⟩
  | 109 => ⟨S3300000x16, .f32⟩
  | 110 => ⟨S_, .f32⟩
  | 111 => ⟨S100000x16, .f32⟩
  | 112 => ⟨S3300000x1, .i32⟩
  | 113 => ⟨S100000x16, .f32⟩
  | 114 => ⟨S1x16, .f32⟩
  | 115 => ⟨S100000x16, .f32⟩
  | 116 => ⟨S100000x16, .f32⟩
  | 117 => ⟨S_, .f32⟩
  | 118 => ⟨S1000x16, .f32⟩
  | 119 => ⟨S100000x1, .i32⟩
  | 120 => ⟨S1000x16, .f32⟩
  | 121 => ⟨S_, .f32⟩
  | 122 => ⟨S100000, .f32⟩
  | 123 => ⟨S_, .f32⟩
  | 124 => ⟨S1000, .f32⟩
  | 125 => ⟨S100000x1, .i32⟩
  | 126 => ⟨S1000, .f32⟩
  | 127 => ⟨S_, .f32⟩
  | _ => ⟨S100000x4, .f32⟩

abbrev hbmTy0_1 (i : Nat) : BufTy := match i % 128 with
  | 0 => ⟨S1000, .f32⟩
  | 1 => ⟨S1000, .f32⟩
  | 2 => ⟨S1000x1, .f32⟩
  | 3 => ⟨S1000x16, .f32⟩
  | 4 => ⟨S1000x16, .f32⟩
  | 5 => ⟨S1000x1, .f32⟩
  | 6 => ⟨S1x1, .f32⟩
  | 7 => ⟨S1000x1, .f32⟩
  | 8 => ⟨S1000x1, .f32⟩
  | 9 => ⟨S_, .f32⟩
  | 10 => ⟨S1000x1, .f32⟩
  | 11 => ⟨S1000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S1000x16 : S_.BroadcastsInDim S1000x16 (![] : Fin 0 → Fin S1000x16.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x16_0_1 : S1000x1.BroadcastsInDim S1000x16 (![0, 1] : Fin 2 → Fin S1000x16.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  bcast_S_S1000x1 : S_.BroadcastsInDim S1000x1 (![] : Fin 0 → Fin S1000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x4_S4x64_S100000x64_1_0_0_1_n_n_wf : DotDims.WF S100000x4 S4x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  scatter_S1000x16_S100000x1_S100000x16_1_0_0_1_wf : ScatterDims.WF S1000x16 S100000x1 S100000x16 [1] [0] [0] 1
  scatter_S1000_S100000x1_S100000_n_0_0_1_wf : ScatterDims.WF S1000 S100000x1 S100000 [] [0] [0] 1
  dot_S1000x16_S16x1_S1000x1_1_0_0_1_n_n_wf : DotDims.WF S1000x16 S16x1 S1000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def scatter_S1000x16_S100000x1_S100000x16_1_0_0_1 : ScatterDims S1000x16 S100000x1 S100000x16 where
  updateWindowDims := [1]
  insertedWindowDims := [0]
  scatterDimsToOperandDims := [0]
  indexVectorDim := 1
  wf := scatter_S1000x16_S100000x1_S100000x16_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x16_S16x1_S1000x1_1_0_0_1_n_n : DotDims S1000x16 S16x1 S1000x1 where
  lhsContracting := [1]
  rhsContracting := [0]
  lhsNonContracting := [0]
  rhsNonContracting := [1]
  lhsBatch := []
  rhsBatch := []
  wf := dot_S1000x16_S16x1_S1000x1_1_0_0_1_n_n_wf

class Facts : Prop extends Facts₀ where

variable [Facts]
-- ==== Proof.Net.lean ====
/-
  The network both programs compute, as one function of the eleven argument arrays, in the host's vocabulary.

  A graph of 100000 nodes and 3200000 directed edges, a self loop added at every node; node features of width 4.
  With `d` the number of edges arriving at a node (self loop included) and `w(e) = d(src e)^(-1/2) · d(dst e)^(-1/2)`,
  a layer maps features `h` to `out(i) = ∑ over edges e into i of w(e) · (h · W)(src e) + b`; three layers of widths
  64, 32 and 16, the first two followed by the rectifier. Then every graph of the batch (1000 of them, `batch` says
  which graph a node belongs to) averages its nodes' rows — the sum divided by the node count, the count clamped below
  at one —, and an output layer `max (pooled · Wl + bl) 0` gives one number per graph.

  Each definition below is one stretch of that computation written with the host's operations: gathers, accumulating
  scatters, broadcasts, pointwise arithmetic, general products. The pieces shared by the three layers (the edge
  endpoints, the edge weights) are functions of the edge list alone.
-/
import proofs.«136478_j77360950935889_1_alg».proof.Proof.Gen.ReferenceIdeal
import Idealize.ShloMosaic.PureOps

noncomputable section

namespace Cert.Net

open Cert.ReferenceIdeal Cert.ReferenceIdeal.Facts₀ Idealize.ShloMosaic

section
variable (F : FTy → Type)
/-- An array of 32-bit integers of a shape. -/
abbrev Ints (s : Shape) : Type := (⟨s, .i32⟩ : BufTy).Contents (Elt F)
/-- An array of floats of a shape. -/
abbrev Floats (s : Shape) : Type := (⟨s, .f32⟩ : BufTy).Contents (Elt F)
end

variable {F : FTy → Type} [FloatOps F]

/-- The edges' source nodes followed by every node's own index (its self loop). -/
def sources (ei : Ints F S2x3200000) : Ints F S3300000 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The edges' target nodes followed by every node's own index. -/
def targets (ei : Ints F S2x3200000) : Ints F S3300000 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A list of node indices made ready for a gather: a negative index counted from the end, then a trailing unit axis. -/
def wrapped (v : Ints F S3300000) : Ints F S3300000x1 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The number of edges arriving at each node, self loop included. -/
def degree (ei : Ints F S2x3200000) : Floats F S100000 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (targets ei))
    (broadcastInDim S3300000 ![] bcast_S_S3300000 (constant S_ .f32 0x3F800000#32))

/-- `d^(-1/2)` where the degree is positive, zero elsewhere. -/
def invSqrtDegree (ei : Ints F S2x3200000) : Floats F S100000 :=
  select (cmpf (F := F) .ogt (degree ei) (broadcastInDim S100000 ![] bcast_S_S100000 (constant S_ .f32 0x00000000#32)))
    (Host.rsqrt (degree ei))
    (broadcastInDim S100000 ![] bcast_S_S100000 (id (constant S_ .f32 0x00000000#32)))

/-- The weight of each edge: the product of the two endpoints' `d^(-1/2)`. -/
def edgeWeight (ei : Ints F S2x3200000) : Floats F S3300000 :=
  mulf (Host.gather gather_S100000_S3300000x1_S3300000_n_0_n_n_0_1_1 (invSqrtDegree ei) (wrapped (sources ei)))
    (Host.gather gather_S100000_S3300000x1_S3300000_n_0_n_n_0_1_1 (invSqrtDegree ei) (wrapped (targets ei)))

/-- Message passing at width 64: every edge (self loops included) carries its source node's row of `h` times the edge's
    weight, and every node sums the rows arriving on its edges. -/
def aggregate64 (ei : Ints F S2x3200000) (h : Floats F S100000x64) : Floats F S100000x64 :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 (targets ei))
    (mulf (Host.gather gather_S100000x64_S3300000x1_S3300000x64_1_0_n_n_0_1_164 h (wrapped (sources ei)))
      (broadcastInDim S3300000x64 ![0, 1] bcast_S3300000x1_S3300000x64_0_1
        (broadcastInDim S3300000x1 ![0] bcast_S3300000_S3300000x1_0 (edgeWeight ei))))

/-- Message passing at width 32: every edge (self loops included) carries its source node's row of `h` times the edge's
    weight, and every node sums the rows arriving on its edges. -/
def aggregate32 (ei : Ints F S2x3200000) (h : Floats F S100000x32) : Floats F S100000x32 :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 (targets ei))
    (mulf (Host.gather gather_S100000x32_S3300000x1_S3300000x32_1_0_n_n_0_1_132 h (wrapped (sources ei)))
      (broadcastInDim S3300000x32 ![0, 1] bcast_S3300000x1_S3300000x32_0_1
        (broadcastInDim S3300000x1 ![0] bcast_S3300000_S3300000x1_0 (edgeWeight ei))))

/-- Message passing at width 16: every edge (self loops included) carries its source node's row of `h` times the edge's
    weight, and every node sums the rows arriving on its edges. -/
def aggregate16 (ei : Ints F S2x3200000) (h : Floats F S100000x16) : Floats F S100000x16 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 (targets ei))
    (mulf (Host.gather gather_S100000x16_S3300000x1_S3300000x16_1_0_n_n_0_1_116 h (wrapped (sources ei)))
      (broadcastInDim S3300000x16 ![0, 1] bcast_S3300000x1_S3300000x16_0_1
        (broadcastInDim S3300000x1 ![0] bcast_S3300000_S3300000x1_0 (edgeWeight ei))))

/-- The linear map of layer 1: `h · W`. -/
def linear1 (h : Floats F S100000x4) (w : Floats F S4x64) : Floats F S100000x64 :=
  Host.dotGeneral dot_S100000x4_S4x64_S100000x64_1_0_0_1_n_n none h w

/-- The linear map of layer 2: `h · W`. -/
def linear2 (h : Floats F S100000x64) (w : Floats F S64x32) : Floats F S100000x32 :=
  Host.dotGeneral dot_S100000x64_S64x32_S100000x32_1_0_0_1_n_n none h w

/-- The linear map of layer 3: `h · W`. -/
def linear3 (h : Floats F S100000x32) (w : Floats F S32x16) : Floats F S100000x16 :=
  Host.dotGeneral dot_S100000x32_S32x16_S100000x16_1_0_0_1_n_n none h w

/-- A bias vector of length 64 as one row. -/
def biasRow64 (b : Floats F S64) : Floats F S1x64 := broadcastInDim S1x64 ![1] bcast_S64_S1x64_1 b

/-- A bias vector of length 32 as one row. -/
def biasRow32 (b : Floats F S32) : Floats F S1x32 := broadcastInDim S1x32 ![1] bcast_S32_S1x32_1 b

/-- A bias vector of length 16 as one row. -/
def biasRow16 (b : Floats F S16) : Floats F S1x16 := broadcastInDim S1x16 ![1] bcast_S16_S1x16_1 b

/-- The bias row added to every row of a matrix of width 64. -/
def addBias64 (a : Floats F S100000x64) (b : Floats F S1x64) : Floats F S100000x64 :=
  addf a (broadcastInDim S100000x64 ![0, 1] bcast_S1x64_S100000x64_0_1 b)

/-- The bias row added to every row of a matrix of width 32. -/
def addBias32 (a : Floats F S100000x32) (b : Floats F S1x32) : Floats F S100000x32 :=
  addf a (broadcastInDim S100000x32 ![0, 1] bcast_S1x32_S100000x32_0_1 b)

/-- The bias row added to every row of a matrix of width 16. -/
def addBias16 (a : Floats F S100000x16) (b : Floats F S1x16) : Floats F S100000x16 :=
  addf a (broadcastInDim S100000x16 ![0, 1] bcast_S1x16_S100000x16_0_1 b)

/-- The rectifier at width 64: the maximum with the zero array. -/
def relu64 (a : Floats F S100000x64) : Floats F S100000x64 :=
  maximumf a (broadcastInDim S100000x64 ![] bcast_S_S100000x64 (constant S_ .f32 0x00000000#32))

/-- The rectifier at width 32: the maximum with the zero array. -/
def relu32 (a : Floats F S100000x32) : Floats F S100000x32 :=
  maximumf a (broadcastInDim S100000x32 ![] bcast_S_S100000x32 (constant S_ .f32 0x00000000#32))

/-- The first layer's output: features of width 64. -/
def hidden1 (x : Floats F S100000x4) (w1 : Floats F S4x64) (b1 : Floats F S64) (ei : Ints F S2x3200000) : Floats F S100000x64 :=
  relu64 (addBias64 (aggregate64 ei (linear1 x w1)) (biasRow64 b1))

/-- The second layer's output: features of width 32. -/
def hidden2 (x : Floats F S100000x4) (w1 : Floats F S4x64) (b1 : Floats F S64) (w2 : Floats F S64x32) (b2 : Floats F S32)
    (ei : Ints F S2x3200000) : Floats F S100000x32 :=
  relu32 (addBias32 (aggregate32 ei (linear2 (hidden1 x w1 b1 ei) w2)) (biasRow32 b2))

/-- The three layers: the node features of width 16 that are pooled (no rectifier after the third). -/
def features (x : Floats F S100000x4) (w1 : Floats F S4x64) (b1 : Floats F S64) (w2 : Floats F S64x32) (b2 : Floats F S32)
    (w3 : Floats F S32x16) (b3 : Floats F S16) (ei : Ints F S2x3200000) : Floats F S100000x16 :=
  addBias16 (aggregate16 ei (linear3 (hidden2 x w1 b1 w2 b2 ei) w3)) (biasRow16 b3)

/-- Mean pooling: each graph's sum of its nodes' rows divided by its node count clamped below at one. -/
def pooled (batch : Ints F S100000) (h : Floats F S100000x16) : Floats F S1000x16 :=
  Host.divf
    (Host.scatterAdd scatter_S1000x16_S100000x1_S100000x16_1_0_0_1
      (broadcastInDim S1000x16 ![] bcast_S_S1000x16 (constant S_ .f32 0x00000000#32))
      (broadcastInDim S100000x1 ![0] bcast_S100000_S100000x1_0 batch) h)
    (broadcastInDim S1000x16 ![0, 1] bcast_S1000x1_S1000x16_0_1
      (broadcastInDim S1000x1 ![0] bcast_S1000_S1000x1_0
        (maximumf
          (Host.scatterAdd scatter_S1000_S100000x1_S100000_n_0_0_1
            (broadcastInDim S1000 ![] bcast_S_S1000 (constant S_ .f32 0x00000000#32))
            (broadcastInDim S100000x1 ![0] bcast_S100000_S100000x1_0 batch)
            (broadcastInDim S100000 ![] bcast_S_S100000 (constant S_ .f32 0x3F800000#32)))
          (broadcastInDim S1000 ![] bcast_S_S1000 (constant S_ .f32 0x3F800000#32)))))

/-- The output layer's bias as a one-by-one matrix. -/
def biasRow1 (b : Floats F S1) : Floats F S1x1 := broadcastInDim S1x1 ![1] bcast_S1_S1x1_1 b

/-- The output layer: `max (p · Wl + bl) 0`. -/
def output (p : Floats F S1000x16) (wl : Floats F S16x1) (bl : Floats F S1x1) : Floats F S1000x1 :=
  maximumf (addf (Host.dotGeneral dot_S1000x16_S16x1_S1000x1_1_0_0_1_n_n none p wl)
      (broadcastInDim S1000x1 ![0, 1] bcast_S1x1_S1000x1_0_1 bl))
    (broadcastInDim S1000x1 ![] bcast_S_S1000x1 (constant S_ .f32 0x00000000#32))

/-- THE NETWORK: one number per graph. -/
def net (x : Floats F S100000x4) (w1 : Floats F S4x64) (b1 : Floats F S64) (w2 : Floats F S64x32) (b2 : Floats F S32)
    (w3 : Floats F S32x16) (b3 : Floats F S16) (wl : Floats F S16x1) (bl : Floats F S1) (ei : Ints F S2x3200000)
    (batch : Ints F S100000) : Floats F S1000x1 :=
  output (pooled batch (features x w1 b1 w2 b2 w3 b3 ei)) wl (biasRow1 bl)

end Cert.Net

end
-- ==== Proof.RefIsNet.lean ====
/-
  The reference computes the network: its run's result, the composed term of its 129 host operations over the launch
  contents of the argument arrays, is `Net.net` of those arrays — the same operations in the same order, grouped into
  the network's stretches.
-/
import proofs.«136478_j77360950935889_1_alg».proof.Proof.RefRun
import proofs.«136478_j77360950935889_1_alg».proof.Proof.Net

noncomputable section

namespace Cert.ReferenceIdeal.Reads

open Cert.ReferenceIdeal Cert.ReferenceIdeal.Gen Cert.Net Idealize.ShloMosaic Idealize.ShloMosaic.TcCoe Idealize.SL.Sem

variable {F : FTy → Type} [FloatOps F]

set_option maxRecDepth 16384 in
set_option maxHeartbeats 4000000 in
/-- The reference's result is the network of its argument arrays. -/
theorem result_is_net (m : (ℓ : Loc nD τ sig) → Buf (Elt F) ℓ) (c : Dev nD) :
    (Cert.ReferenceIdeal.ValueP.res_main_v99 m c : Floats F S1000x1)
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.ValueP.res_main_v99
  rfl

end Cert.ReferenceIdeal.Reads

end
-- ==== Proof.LibCat.lean ====
/-
  Two arrays joined along an axis, named as a function of the two arrays.

  The join of a list of arrays carries a side condition on the list's shapes. Stated over the list itself, that condition
  stands in the way of rewriting the arrays inside the list; stated over the two shapes, it does not. The two spellings
  are the same function by definition. With it, what a buffer holds after a line of host operations can be read in one
  pass even when the line joins arrays and calls functions.
-/
import Idealize.ShloMosaic.Lib.StableHlo.Run

noncomputable section

namespace Cert.LibCat

open Idealize.ShloMosaic Idealize.ShloMosaic.StableHlo

/-- Two arrays joined along axis `a` of the result shape `t`, the side condition over the two shapes only. -/
def cat2 {α : Type} (t : Shape) (a : Fin t.rank) (s1 s2 : Shape) (h : Shape.Concatenates [s1, s2] t a)
    (x1 : s1.Idx → α) (x2 : s2.Idx → α) : t.Idx → α :=
  concatenate t a [⟨s1, x1⟩, ⟨s2, x2⟩] h

/-- A two-piece join is `cat2` of its pieces. -/
theorem cat2_fold {α : Type} (t : Shape) (a : Fin t.rank) (s1 s2 : Shape) (h : Shape.Concatenates [s1, s2] t a)
    (x1 : s1.Idx → α) (x2 : s2.Idx → α) : concatenate t a [⟨s1, x1⟩, ⟨s2, x2⟩] h = cat2 t a s1 s2 h x1 x2 := rfl

end Cert.LibCat

/-- What a buffer holds after a line of host operations, in one rewriting pass that also reads through two-piece
    joins: each operation's result at its own buffer is its function's value, at any other buffer what was there. An
    operation of a called function carries its operands from their buffers' types to the values' types and its result
    back; at a literal buffer the two types are one, and that transport is the identity. -/
macro "after_results_cat" : tactic =>
  `(tactic| (simp (disch := decide) only [Idealize.ShloMosaic.StableHlo.after_cons, Idealize.ShloMosaic.StableHlo.after_nil, Cert.LibCat.cat2_fold, cast_eq,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.Carry.lean ====
/-
  What the host computed once, and the argument arrays, as the later segments of the kernel's program find them.

  The program's first three stretches of host operations compute, from the edge list alone, the edges' endpoints with
  a self loop added at every node and the edge weights. No later segment writes those buffers, nor any argument array:
  a host stretch writes only its own results, and a pipelined region writes only its output array. So at every later
  boundary of the chain of segments each of these buffers still holds what it held at the first region's entry. One
  lemma per buffer and boundary, each from the boundary before.
-/
import proofs.«136478_j77360950935889_1_alg».proof.Proof.Gen.KernelIdeal.Frame
import proofs.«136478_j77360950935889_1_alg».proof.Proof.Net
import Idealize.ShloMosaic.Lib.StableHlo.Run
import Idealize.ShloMosaic.PureOps.Ideal
import proofs.«136478_j77360950935889_1_alg».proof.Proof.LibCat

set_option maxRecDepth 16384

noncomputable section

namespace Cert.KernelIdeal.Carry

open Cert.KernelIdeal Cert.KernelIdeal.Gen Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## the edges' source nodes with the self loops -/

/-- At the first region's entry: the edges' source nodes with the self loops, by the first three host stretches from the launch memory. -/
theorem at3_main_v3 : (W3 m ρ c (Proc.devRef .tc main_v3) : Ints Ideal S3300000) = sources (m ((c : Thread nD τ).loc main_arg9)) := by
  show StableHlo.after hostOps0_2 (StableHlo.after hostOps0_1 (StableHlo.after hostOps0 (W0 m ρ c))) (Proc.devRef .tc main_v3) = _
  dsimp only [hostOps0, hostOps0_1, hostOps0_2]
  after_results_cat <;> rfl

theorem at4_main_v3 : (W4 m ρ c (Proc.devRef .tc main_v3) : Ints Ideal S3300000) = sources (m ((c : Thread nD τ).loc main_arg9)) :=
  (W4_of_ne m ρ c main_v3 (by decide)).trans (at3_main_v3 m ρ c)

theorem at5_main_v3 : (W5 m ρ c (Proc.devRef .tc main_v3) : Ints Ideal S3300000) = sources (m ((c : Thread nD τ).loc main_arg9)) := by
  show StableHlo.after hostOps1 (W4 m ρ c) (Proc.devRef .tc main_v3) = _
  dsimp only [hostOps1]
  after_results_simp
  exact at4_main_v3 m ρ c

theorem at6_main_v3 : (W6 m ρ c (Proc.devRef .tc main_v3) : Ints Ideal S3300000) = sources (m ((c : Thread nD τ).loc main_arg9)) :=
  (W6_of_ne m ρ c main_v3 (by decide)).trans (at5_main_v3 m ρ c)

theorem at7_main_v3 : (W7 m ρ c (Proc.devRef .tc main_v3) : Ints Ideal S3300000) = sources (m ((c : Thread nD τ).loc main_arg9)) :=
  (W7_of_ne m ρ c main_v3 (by decide)).trans (at6_main_v3 m ρ c)

theorem at8_main_v3 : (W8 m ρ c (Proc.devRef .tc main_v3) : Ints Ideal S3300000) = sources (m ((c : Thread nD τ).loc main_arg9)) := by
  show StableHlo.after hostOps3 (W7 m ρ c) (Proc.devRef .tc main_v3) = _
  dsimp only [hostOps3]
  after_results_simp
  exact at7_main_v3 m ρ c

theorem at9_main_v3 : (W9 m ρ c (Proc.devRef .tc main_v3) : Ints Ideal S3300000) = sources (m ((c : Thread nD τ).loc main_arg9)) :=
  (W9_of_ne m ρ c main_v3 (by decide)).trans (at8_main_v3 m ρ c)

theorem at10_main_v3 : (W10 m ρ c (Proc.devRef .tc main_v3) : Ints Ideal S3300000) = sources (m ((c : Thread nD τ).loc main_arg9)) :=
  (W10_of_ne m ρ c main_v3 (by decide)).trans (at9_main_v3 m ρ c)

/-! ## the edges' target nodes with the self loops -/

/-- At the first region's entry: the edges' target nodes with the self loops, by the first three host stretches from the launch memory. -/
theorem at3_main_v6 : (W3 m ρ c (Proc.devRef .tc main_v6) : Ints Ideal S3300000) = targets (m ((c : Thread nD τ).loc main_arg9)) := by
  show StableHlo.after hostOps0_2 (StableHlo.after hostOps0_1 (StableHlo.after hostOps0 (W0 m ρ c))) (Proc.devRef .tc main_v6) = _
  dsimp only [hostOps0, hostOps0_1, hostOps0_2]
  after_results_cat <;> rfl

theorem at4_main_v6 : (W4 m ρ c (Proc.devRef .tc main_v6) : Ints Ideal S3300000) = targets (m ((c : Thread nD τ).loc main_arg9)) :=
  (W4_of_ne m ρ c main_v6 (by decide)).trans (at3_main_v6 m ρ c)

theorem at5_main_v6 : (W5 m ρ c (Proc.devRef .tc main_v6) : Ints Ideal S3300000) = targets (m ((c : Thread nD τ).loc main_arg9)) := by
  show StableHlo.after hostOps1 (W4 m ρ c) (Proc.devRef .tc main_v6) = _
  dsimp only [hostOps1]
  after_results_simp
  exact at4_main_v6 m ρ c

theorem at6_main_v6 : (W6 m ρ c (Proc.devRef .tc main_v6) : Ints Ideal S3300000) = targets (m ((c : Thread nD τ).loc main_arg9)) :=
  (W6_of_ne m ρ c main_v6 (by decide)).trans (at5_main_v6 m ρ c)

theorem at7_main_v6 : (W7 m ρ c (Proc.devRef .tc main_v6) : Ints Ideal S3300000) = targets (m ((c : Thread nD τ).loc main_arg9)) :=
  (W7_of_ne m ρ c main_v6 (by decide)).trans (at6_main_v6 m ρ c)

theorem at8_main_v6 : (W8 m ρ c (Proc.devRef .tc main_v6) : Ints Ideal S3300000) = targets (m ((c : Thread nD τ).loc main_arg9)) := by
  show StableHlo.after hostOps3 (W7 m ρ c) (Proc.devRef .tc main_v6) = _
  dsimp only [hostOps3]
  after_results_simp
  exact at7_main_v6 m ρ c

theorem at9_main_v6 : (W9 m ρ c (Proc.devRef .tc main_v6) : Ints Ideal S3300000) = targets (m ((c : Thread nD τ).loc main_arg9)) :=
  (W9_of_ne m ρ c main_v6 (by decide)).trans (at8_main_v6 m ρ c)

theorem at10_main_v6 : (W10 m ρ c (Proc.devRef .tc main_v6) : Ints Ideal S3300000) = targets (m ((c : Thread nD τ).loc main_arg9)) :=
  (W10_of_ne m ρ c main_v6 (by decide)).trans (at9_main_v6 m ρ c)

/-! ## the edge weights -/

/-- At the first region's entry: the edge weights, by the first three host stretches from the launch memory. -/
theorem at3_main_v29 : (W3 m ρ c (Proc.devRef .tc main_v29) : Floats Ideal S3300000) = edgeWeight (m ((c : Thread nD τ).loc main_arg9)) := by
  show StableHlo.after hostOps0_2 (StableHlo.after hostOps0_1 (StableHlo.after hostOps0 (W0 m ρ c))) (Proc.devRef .tc main_v29) = _
  dsimp only [hostOps0, hostOps0_1, hostOps0_2]
  after_results_cat <;> rfl

theorem at4_main_v29 : (W4 m ρ c (Proc.devRef .tc main_v29) : Floats Ideal S3300000) = edgeWeight (m ((c : Thread nD τ).loc main_arg9)) :=
  (W4_of_ne m ρ c main_v29 (by decide)).trans (at3_main_v29 m ρ c)

theorem at5_main_v29 : (W5 m ρ c (Proc.devRef .tc main_v29) : Floats Ideal S3300000) = edgeWeight (m ((c : Thread nD τ).loc main_arg9)) := by
  show StableHlo.after hostOps1 (W4 m ρ c) (Proc.devRef .tc main_v29) = _
  dsimp only [hostOps1]
  after_results_simp
  exact at4_main_v29 m ρ c

theorem at6_main_v29 : (W6 m ρ c (Proc.devRef .tc main_v29) : Floats Ideal S3300000) = edgeWeight (m ((c : Thread nD τ).loc main_arg9)) :=
  (W6_of_ne m ρ c main_v29 (by decide)).trans (at5_main_v29 m ρ c)

theorem at7_main_v29 : (W7 m ρ c (Proc.devRef .tc main_v29) : Floats Ideal S3300000) = edgeWeight (m ((c : Thread nD τ).loc main_arg9)) :=
  (W7_of_ne m ρ c main_v29 (by decide)).trans (at6_main_v29 m ρ c)

theorem at8_main_v29 : (W8 m ρ c (Proc.devRef .tc main_v29) : Floats Ideal S3300000) = edgeWeight (m ((c : Thread nD τ).loc main_arg9)) := by
  show StableHlo.after hostOps3 (W7 m ρ c) (Proc.devRef .tc main_v29) = _
  dsimp only [hostOps3]
  after_results_simp
  exact at7_main_v29 m ρ c

theorem at9_main_v29 : (W9 m ρ c (Proc.devRef .tc main_v29) : Floats Ideal S3300000) = edgeWeight (m ((c : Thread nD τ).loc main_arg9)) :=
  (W9_of_ne m ρ c main_v29 (by decide)).trans (at8_main_v29 m ρ c)

theorem at10_main_v29 : (W10 m ρ c (Proc.devRef .tc main_v29) : Floats Ideal S3300000) = edgeWeight (m ((c : Thread nD τ).loc main_arg9)) :=
  (W10_of_ne m ρ c main_v29 (by decide)).trans (at9_main_v29 m ρ c)

/-! ## argument 0 -/

/-- At the first region's entry: argument 0, by the first three host stretches from the launch memory. -/
theorem at3_main_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0, hostOps0_1, hostOps0_2]
  after_results_cat <;> rfl

/-! ## argument 1 -/

/-- At the first region's entry: argument 1, by the first three host stretches from the launch memory. -/
theorem at3_main_arg1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  dsimp only [hostOps0, hostOps0_1, hostOps0_2]
  after_results_cat <;> rfl

/-! ## argument 2 -/

/-- At the first region's entry: argument 2, by the first three host stretches from the launch memory. -/
theorem at3_main_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  dsimp only [hostOps0, hostOps0_1, hostOps0_2]
  after_results_cat <;> rfl

theorem at4_main_arg2 : W4 m ρ c (Proc.devRef .tc main_arg2) = (m ((c : Thread nD τ).loc main_arg2)) :=
  (W4_of_ne m ρ c main_arg2 (by decide)).trans (at3_main_arg2 m ρ c)

/-! ## argument 3 -/

/-- At the first region's entry: argument 3, by the first three host stretches from the launch memory. -/
theorem at3_main_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0, hostOps0_1, hostOps0_2]
  after_results_cat <;> rfl

theorem at4_main_arg3 : W4 m ρ c (Proc.devRef .tc main_arg3) = (m ((c : Thread nD τ).loc main_arg3)) :=
  (W4_of_ne m ρ c main_arg3 (by decide)).trans (at3_main_arg3 m ρ c)

theorem at5_main_arg3 : W5 m ρ c (Proc.devRef .tc main_arg3) = (m ((c : Thread nD τ).loc main_arg3)) := by
  show StableHlo.after hostOps1 (W4 m ρ c) (Proc.devRef .tc main_arg3) = _
  dsimp only [hostOps1]
  after_results_simp
  exact at4_main_arg3 m ρ c

theorem at6_main_arg3 : W6 m ρ c (Proc.devRef .tc main_arg3) = (m ((c : Thread nD τ).loc main_arg3)) :=
  (W6_of_ne m ρ c main_arg3 (by decide)).trans (at5_main_arg3 m ρ c)

/-! ## argument 4 -/

/-- At the first region's entry: argument 4, by the first three host stretches from the launch memory. -/
theorem at3_main_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  dsimp only [hostOps0, hostOps0_1, hostOps0_2]
  after_results_cat <;> rfl

theorem at4_main_arg4 : W4 m ρ c (Proc.devRef .tc main_arg4) = (m ((c : Thread nD τ).loc main_arg4)) :=
  (W4_of_ne m ρ c main_arg4 (by decide)).trans (at3_main_arg4 m ρ c)

theorem at5_main_arg4 : W5 m ρ c (Proc.devRef .tc main_arg4) = (m ((c : Thread nD τ).loc main_arg4)) := by
  show StableHlo.after hostOps1 (W4 m ρ c) (Proc.devRef .tc main_arg4) = _
  dsimp only [hostOps1]
  after_results_simp
  exact at4_main_arg4 m ρ c

theorem at6_main_arg4 : W6 m ρ c (Proc.devRef .tc main_arg4) = (m ((c : Thread nD τ).loc main_arg4)) :=
  (W6_of_ne m ρ c main_arg4 (by decide)).trans (at5_main_arg4 m ρ c)

theorem at7_main_arg4 : W7 m ρ c (Proc.devRef .tc main_arg4) = (m ((c : Thread nD τ).loc main_arg4)) :=
  (W7_of_ne m ρ c main_arg4 (by decide)).trans (at6_main_arg4 m ρ c)

/-! ## argument 5 -/

/-- At the first region's entry: argument 5, by the first three host stretches from the launch memory. -/
theorem at3_main_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  dsimp only [hostOps0, hostOps0_1, hostOps0_2]
  after_results_cat <;> rfl

theorem at4_main_arg5 : W4 m ρ c (Proc.devRef .tc main_arg5) = (m ((c : Thread nD τ).loc main_arg5)) :=
  (W4_of_ne m ρ c main_arg5 (by decide)).trans (at3_main_arg5 m ρ c)

theorem at5_main_arg5 : W5 m ρ c (Proc.devRef .tc main_arg5) = (m ((c : Thread nD τ).loc main_arg5)) := by
  show StableHlo.after hostOps1 (W4 m ρ c) (Proc.devRef .tc main_arg5) = _
  dsimp only [hostOps1]
  after_results_simp
  exact at4_main_arg5 m ρ c

theorem at6_main_arg5 : W6 m ρ c (Proc.devRef .tc main_arg5) = (m ((c : Thread nD τ).loc main_arg5)) :=
  (W6_of_ne m ρ c main_arg5 (by decide)).trans (at5_main_arg5 m ρ c)

theorem at7_main_arg5 : W7 m ρ c (Proc.devRef .tc main_arg5) = (m ((c : Thread nD τ).loc main_arg5)) :=
  (W7_of_ne m ρ c main_arg5 (by decide)).trans (at6_main_arg5 m ρ c)

theorem at8_main_arg5 : W8 m ρ c (Proc.devRef .tc main_arg5) = (m ((c : Thread nD τ).loc main_arg5)) := by
  show StableHlo.after hostOps3 (W7 m ρ c) (Proc.devRef .tc main_arg5) = _
  dsimp only [hostOps3]
  after_results_simp
  exact at7_main_arg5 m ρ c

theorem at9_main_arg5 : W9 m ρ c (Proc.devRef .tc main_arg5) = (m ((c : Thread nD τ).loc main_arg5)) :=
  (W9_of_ne m ρ c main_arg5 (by decide)).trans (at8_main_arg5 m ρ c)

/-! ## argument 6 -/

/-- At the first region's entry: argument 6, by the first three host stretches from the launch memory. -/
theorem at3_main_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  dsimp only [hostOps0, hostOps0_1, hostOps0_2]
  after_results_cat <;> rfl

theorem at4_main_arg6 : W4 m ρ c (Proc.devRef .tc main_arg6) = (m ((c : Thread nD τ).loc main_arg6)) :=
  (W4_of_ne m ρ c main_arg6 (by decide)).trans (at3_main_arg6 m ρ c)

theorem at5_main_arg6 : W5 m ρ c (Proc.devRef .tc main_arg6) = (m ((c : Thread nD τ).loc main_arg6)) := by
  show StableHlo.after hostOps1 (W4 m ρ c) (Proc.devRef .tc main_arg6) = _
  dsimp only [hostOps1]
  after_results_simp
  exact at4_main_arg6 m ρ c

theorem at6_main_arg6 : W6 m ρ c (Proc.devRef .tc main_arg6) = (m ((c : Thread nD τ).loc main_arg6)) :=
  (W6_of_ne m ρ c main_arg6 (by decide)).trans (at5_main_arg6 m ρ c)

theorem at7_main_arg6 : W7 m ρ c (Proc.devRef .tc main_arg6) = (m ((c : Thread nD τ).loc main_arg6)) :=
  (W7_of_ne m ρ c main_arg6 (by decide)).trans (at6_main_arg6 m ρ c)

theorem at8_main_arg6 : W8 m ρ c (Proc.devRef .tc main_arg6) = (m ((c : Thread nD τ).loc main_arg6)) := by
  show StableHlo.after hostOps3 (W7 m ρ c) (Proc.devRef .tc main_arg6) = _
  dsimp only [hostOps3]
  after_results_simp
  exact at7_main_arg6 m ρ c

theorem at9_main_arg6 : W9 m ρ c (Proc.devRef .tc main_arg6) = (m ((c : Thread nD τ).loc main_arg6)) :=
  (W9_of_ne m ρ c main_arg6 (by decide)).trans (at8_main_arg6 m ρ c)

theorem at10_main_arg6 : W10 m ρ c (Proc.devRef .tc main_arg6) = (m ((c : Thread nD τ).loc main_arg6)) :=
  (W10_of_ne m ρ c main_arg6 (by decide)).trans (at9_main_arg6 m ρ c)

/-! ## argument 7 -/

/-- At the first region's entry: argument 7, by the first three host stretches from the launch memory. -/
theorem at3_main_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  dsimp only [hostOps0, hostOps0_1, hostOps0_2]
  after_results_cat <;> rfl

theorem at4_main_arg7 : W4 m ρ c (Proc.devRef .tc main_arg7) = (m ((c : Thread nD τ).loc main_arg7)) :=
  (W4_of_ne m ρ c main_arg7 (by decide)).trans (at3_main_arg7 m ρ c)

theorem at5_main_arg7 : W5 m ρ c (Proc.devRef .tc main_arg7) = (m ((c : Thread nD τ).loc main_arg7)) := by
  show StableHlo.after hostOps1 (W4 m ρ c) (Proc.devRef .tc main_arg7) = _
  dsimp only [hostOps1]
  after_results_simp
  exact at4_main_arg7 m ρ c

theorem at6_main_arg7 : W6 m ρ c (Proc.devRef .tc main_arg7) = (m ((c : Thread nD τ).loc main_arg7)) :=
  (W6_of_ne m ρ c main_arg7 (by decide)).trans (at5_main_arg7 m ρ c)

theorem at7_main_arg7 : W7 m ρ c (Proc.devRef .tc main_arg7) = (m ((c : Thread nD τ).loc main_arg7)) :=
  (W7_of_ne m ρ c main_arg7 (by decide)).trans (at6_main_arg7 m ρ c)

theorem at8_main_arg7 : W8 m ρ c (Proc.devRef .tc main_arg7) = (m ((c : Thread nD τ).loc main_arg7)) := by
  show StableHlo.after hostOps3 (W7 m ρ c) (Proc.devRef .tc main_arg7) = _
  dsimp only [hostOps3]
  after_results_simp
  exact at7_main_arg7 m ρ c

theorem at9_main_arg7 : W9 m ρ c (Proc.devRef .tc main_arg7) = (m ((c : Thread nD τ).loc main_arg7)) :=
  (W9_of_ne m ρ c main_arg7 (by decide)).trans (at8_main_arg7 m ρ c)

theorem at10_main_arg7 : W10 m ρ c (Proc.devRef .tc main_arg7) = (m ((c : Thread nD τ).loc main_arg7)) :=
  (W10_of_ne m ρ c main_arg7 (by decide)).trans (at9_main_arg7 m ρ c)

theorem at11_main_arg7 : W11 m ρ c (Proc.devRef .tc main_arg7) = (m ((c : Thread nD τ).loc main_arg7)) := by
  show StableHlo.after hostOps5 (W10 m ρ c) (Proc.devRef .tc main_arg7) = _
  dsimp only [hostOps5]
  after_results_simp
  exact at10_main_arg7 m ρ c

theorem at12_main_arg7 : W12 m ρ c (Proc.devRef .tc main_arg7) = (m ((c : Thread nD τ).loc main_arg7)) :=
  (W12_of_ne m ρ c main_arg7 (by decide)).trans (at11_main_arg7 m ρ c)

theorem at13_main_arg7 : W13 m ρ c (Proc.devRef .tc main_arg7) = (m ((c : Thread nD τ).loc main_arg7)) := by
  show StableHlo.after hostOps6 (W12 m ρ c) (Proc.devRef .tc main_arg7) = _
  dsimp only [hostOps6]
  after_results_simp
  exact at12_main_arg7 m ρ c

/-! ## argument 8 -/

/-- At the first region's entry: argument 8, by the first three host stretches from the launch memory. -/
theorem at3_main_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  dsimp only [hostOps0, hostOps0_1, hostOps0_2]
  after_results_cat <;> rfl

theorem at4_main_arg8 : W4 m ρ c (Proc.devRef .tc main_arg8) = (m ((c : Thread nD τ).loc main_arg8)) :=
  (W4_of_ne m ρ c main_arg8 (by decide)).trans (at3_main_arg8 m ρ c)

theorem at5_main_arg8 : W5 m ρ c (Proc.devRef .tc main_arg8) = (m ((c : Thread nD τ).loc main_arg8)) := by
  show StableHlo.after hostOps1 (W4 m ρ c) (Proc.devRef .tc main_arg8) = _
  dsimp only [hostOps1]
  after_results_simp
  exact at4_main_arg8 m ρ c

theorem at6_main_arg8 : W6 m ρ c (Proc.devRef .tc main_arg8) = (m ((c : Thread nD τ).loc main_arg8)) :=
  (W6_of_ne m ρ c main_arg8 (by decide)).trans (at5_main_arg8 m ρ c)

theorem at7_main_arg8 : W7 m ρ c (Proc.devRef .tc main_arg8) = (m ((c : Thread nD τ).loc main_arg8)) :=
  (W7_of_ne m ρ c main_arg8 (by decide)).trans (at6_main_arg8 m ρ c)

theorem at8_main_arg8 : W8 m ρ c (Proc.devRef .tc main_arg8) = (m ((c : Thread nD τ).loc main_arg8)) := by
  show StableHlo.after hostOps3 (W7 m ρ c) (Proc.devRef .tc main_arg8) = _
  dsimp only [hostOps3]
  after_results_simp
  exact at7_main_arg8 m ρ c

theorem at9_main_arg8 : W9 m ρ c (Proc.devRef .tc main_arg8) = (m ((c : Thread nD τ).loc main_arg8)) :=
  (W9_of_ne m ρ c main_arg8 (by decide)).trans (at8_main_arg8 m ρ c)

theorem at10_main_arg8 : W10 m ρ c (Proc.devRef .tc main_arg8) = (m ((c : Thread nD τ).loc main_arg8)) :=
  (W10_of_ne m ρ c main_arg8 (by decide)).trans (at9_main_arg8 m ρ c)

theorem at11_main_arg8 : W11 m ρ c (Proc.devRef .tc main_arg8) = (m ((c : Thread nD τ).loc main_arg8)) := by
  show StableHlo.after hostOps5 (W10 m ρ c) (Proc.devRef .tc main_arg8) = _
  dsimp only [hostOps5]
  after_results_simp
  exact at10_main_arg8 m ρ c

theorem at12_main_arg8 : W12 m ρ c (Proc.devRef .tc main_arg8) = (m ((c : Thread nD τ).loc main_arg8)) :=
  (W12_of_ne m ρ c main_arg8 (by decide)).trans (at11_main_arg8 m ρ c)

/-! ## argument 10 -/

/-- At the first region's entry: argument 10, by the first three host stretches from the launch memory. -/
theorem at3_main_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  dsimp only [hostOps0, hostOps0_1, hostOps0_2]
  after_results_cat <;> rfl

theorem at4_main_arg10 : W4 m ρ c (Proc.devRef .tc main_arg10) = (m ((c : Thread nD τ).loc main_arg10)) :=
  (W4_of_ne m ρ c main_arg10 (by decide)).trans (at3_main_arg10 m ρ c)

theorem at5_main_arg10 : W5 m ρ c (Proc.devRef .tc main_arg10) = (m ((c : Thread nD τ).loc main_arg10)) := by
  show StableHlo.after hostOps1 (W4 m ρ c) (Proc.devRef .tc main_arg10) = _
  dsimp only [hostOps1]
  after_results_simp
  exact at4_main_arg10 m ρ c

theorem at6_main_arg10 : W6 m ρ c (Proc.devRef .tc main_arg10) = (m ((c : Thread nD τ).loc main_arg10)) :=
  (W6_of_ne m ρ c main_arg10 (by decide)).trans (at5_main_arg10 m ρ c)

theorem at7_main_arg10 : W7 m ρ c (Proc.devRef .tc main_arg10) = (m ((c : Thread nD τ).loc main_arg10)) :=
  (W7_of_ne m ρ c main_arg10 (by decide)).trans (at6_main_arg10 m ρ c)

theorem at8_main_arg10 : W8 m ρ c (Proc.devRef .tc main_arg10) = (m ((c : Thread nD τ).loc main_arg10)) := by
  show StableHlo.after hostOps3 (W7 m ρ c) (Proc.devRef .tc main_arg10) = _
  dsimp only [hostOps3]
  after_results_simp
  exact at7_main_arg10 m ρ c

theorem at9_main_arg10 : W9 m ρ c (Proc.devRef .tc main_arg10) = (m ((c : Thread nD τ).loc main_arg10)) :=
  (W9_of_ne m ρ c main_arg10 (by decide)).trans (at8_main_arg10 m ρ c)

theorem at10_main_arg10 : W10 m ρ c (Proc.devRef .tc main_arg10) = (m ((c : Thread nD τ).loc main_arg10)) :=
  (W10_of_ne m ρ c main_arg10 (by decide)).trans (at9_main_arg10 m ρ c)

theorem at11_main_arg10 : W11 m ρ c (Proc.devRef .tc main_arg10) = (m ((c : Thread nD τ).loc main_arg10)) := by
  show StableHlo.after hostOps5 (W10 m ρ c) (Proc.devRef .tc main_arg10) = _
  dsimp only [hostOps5]
  after_results_simp
  exact at10_main_arg10 m ρ c

theorem at12_main_arg10 : W12 m ρ c (Proc.devRef .tc main_arg10) = (m ((c : Thread nD τ).loc main_arg10)) :=
  (W12_of_ne m ρ c main_arg10 (by decide)).trans (at11_main_arg10 m ρ c)

end Cert.KernelIdeal.Carry

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.Linear0.lean ====
/-
  The linear map of a graph-convolution layer, `h · W` for `h` of 100000 rows and 4 columns and `W` of 4 rows and
  64 columns, computed ten thousand rows at a time.

  Grid point `t` reads rows `10000·t … 10000·t + 9999` of `h` and the whole of `W`, multiplies them on the matrix
  unit into a zero accumulator (the factors rounded to bf16 first, which over the extended reals is the identity) and
  writes the product back to the same rows of the result. Entry `(a, b)` of a block's product is
  `∑ k, h (10000·t + a, k) · W (k, b)`: row `r` of a product depends on row `r` of the left factor only, so the ten
  blocks are the ten row blocks of the one product `h · W`, which is the host's general product of the two whole arrays.
-/
import proofs.«136478_j77360950935889_1_alg».proof.Proof.Gen.KernelIdeal.Frame
import proofs.«136478_j77360950935889_1_alg».proof.Proof.Gen.ReferenceIdeal
import proofs.«136478_j77360950935889_1_alg».proof.Proof.LibProduct
import Idealize.ShloMosaic.Lib.Pipeline.Value
import Idealize.ShloMosaic.Lib.ValueIdx
import Idealize.ShloMosaic.PureOps.Ideal.Laws

set_option maxRecDepth 16384

noncomputable section

namespace Cert.KernelIdeal.Linear0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole product `h · W` as the host computes it. -/
abbrev whole (h : FVec Ideal S100000x4 .f32) (w : FVec Ideal S4x64 .f32) : FVec Ideal S100000x64 .f32 :=
  Host.dotGeneral Cert.ReferenceIdeal.dot_S100000x4_S4x64_S100000x64_1_0_0_1_n_n none h w

theorem hz : (![0, 0] : Fin 2 → Nat) = fun _ => 0 := funext fun a => by fin_cases a <;> rfl

/-- Where the three windows' blocks sit at grid point `t`: the left factor's and the result's at row block `t`, the
    right factor's at the origin; and there are ten points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Row `a` of block `t` is row `10000·t + a` of the array. -/
def row (t : Fin cfg0.N) (a : Fin 10000) : Fin 100000 :=
  ⟨10000 * t.val + a.val, by have := (idx_facts t).2.2.2.2.2.2; have := a.isLt; omega⟩

/-- A block's product at an entry: the sum over the shared coordinate. -/
theorem block_apply (x0 : Vec Ideal S10000x4 .f32) (x1 : Vec Ideal S4x64 .f32) (a : Fin 10000) (b : Fin 64) :
    k0_pay1 x0 x1 (ix2 a b) = ∑ k : Fin 4, x0 (ix2 a k) * x1 (ix2 k b) := by
  unfold k0_pay1
  exact Cert.LibProduct.matmul_zero_apply dot_S10000x4_S4x64_S10000x64_1_0_0_1_n_n rfl rfl rfl rfl rfl rfl none
    (truncf .bf16 x0 bitsLt_bf16_f32) (truncf .bf16 x1 bitsLt_bf16_f32) a b

/-- The whole product at an entry. -/
theorem whole_apply (h : FVec Ideal S100000x4 .f32) (w : FVec Ideal S4x64 .f32) (r : Fin 100000) (b : Fin 64) :
    whole h w (ix2 r b) = ∑ k : Fin 4, h (ix2 r k) * w (ix2 k b) :=
  Cert.LibProduct.dotGeneral_apply Cert.ReferenceIdeal.dot_S100000x4_S4x64_S100000x64_1_0_0_1_n_n rfl rfl rfl rfl rfl rfl none h w r b

/-- The left factor's block at point `t` holds rows `10000·t …` of the array the region finds. -/
theorem left_block (c : Dev nD) (t : Fin cfg0.N) (a : Fin 10000) (k : Fin 4) :
    (iblk0 V c 0 t : Vec Ideal S10000x4 .f32) (ix2 a k) = (V c main_arg0 : S100000x4.Idx → EReal) (ix2 (row t a) k) := by
  obtain ⟨e0, e1, -⟩ := idx_facts t
  unfold iblk0
  rw [View.read_apply]
  show (V c main_arg0 : S100000x4.Idx → EReal) _ = _
  refine congrArg (V c main_arg0 : S100000x4.Idx → EReal) (funext fun ax => Fin.ext ?_)
  match ax with
  | ⟨0, _⟩ => show win0_0.index t (0 : Fin 2) * 10000 + 1 * a.val = 10000 * t.val + a.val; rw [e0]; omega
  | ⟨1, _⟩ => show win0_0.index t (1 : Fin 2) * 4 + 1 * k.val = k.val; rw [e1]; omega

/-- The right factor's block at every point is the whole of the array the region finds. -/
theorem right_block (c : Dev nD) (t : Fin cfg0.N) (k : Fin 4) (b : Fin 64) :
    (iblk0 V c 1 t : Vec Ideal S4x64 .f32) (ix2 k b) = (V c main_arg1 : S4x64.Idx → EReal) (ix2 k b) := by
  obtain ⟨-, -, e2, e3, -⟩ := idx_facts t
  unfold iblk0
  rw [View.read_apply]
  show (V c main_arg1 : S4x64.Idx → EReal) _ = _
  refine congrArg (V c main_arg1 : S4x64.Idx → EReal) (funext fun ax => Fin.ext ?_)
  match ax with
  | ⟨0, _⟩ => show win0_1.index t (0 : Fin 2) * 4 + 1 * k.val = k.val; rw [e2]; omega
  | ⟨1, _⟩ => show win0_1.index t (1 : Fin 2) * 64 + 1 * b.val = b.val; rw [e3]; omega

/-- What point `t` writes back is block `t` of the whole product of the arrays the region finds. -/
theorem flushed_eq (c : Dev nD) (t : Fin cfg0.N) :
    (dat0 V c).flushed 2 t = ((cfg0.win 2).blk t).view.read (Elt Ideal) (whole (V c main_arg0) (V c main_arg1)) := by
  show (cfg0.win 2).cut (grid0.coords t) ((dat0 V c).after 2 t) = _
  rw [after0_2]
  unfold out0_2
  rw [View.canon_unit_zero hz]
  simp only [View.ld_unit_zero (S := S10000x4) hz, View.ld_unit_zero (S := S4x64) hz]
  obtain ⟨-, -, -, -, e4, e5, -⟩ := idx_facts t
  funext j
  obtain ⟨a, b, rfl⟩ : ∃ (a : Fin 10000) (b : Fin 64), j = ix2 a b := ⟨j 0, j 1, eq_ix2 j⟩
  show k0_pay1 (iblk0 V c 0 t) (iblk0 V c 1 t) (ix2 a b)
    = whole (V c main_arg0) (V c main_arg1) (((cfg0.win 2).blk t).view.emb (ix2 a b))
  have he : ((cfg0.win 2).blk t).view.emb (ix2 a b) = ix2 (row t a) b := funext fun ax => Fin.ext (by
    match ax with
    | ⟨0, _⟩ => show win0_2.index t (0 : Fin 2) * 10000 + 1 * a.val = 10000 * t.val + a.val; rw [e4]; omega
    | ⟨1, _⟩ => show win0_2.index t (1 : Fin 2) * 64 + 1 * b.val = b.val; rw [e5]; omega)
  rw [he, whole_apply]
  refine (block_apply _ _ a b).trans (Finset.sum_congr rfl fun k _ => ?_)
  rw [left_block V c t a k, right_block V c t k b]

/-- An index of the result is in point `t`'s block iff its row is among that block's ten thousand. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole (Pipeline.arrRef spec0 2)).slice (win0_2.rect t)).set ↔ _
  rw [View.set_slice_whole, Rect.mem_set_unit]
  exact Iff.rfl

/-- Every block index of the result is some point's. -/
theorem idx_onto : ∀ q : Fin 10, ∃ t : Fin cfg0.N, win0_2.index t (0 : Fin 2) = q.val ∧ win0_2.index t (1 : Fin 2) = 0 :=
  (by decide +kernel : ∀ q : Fin 10, ∃ t : Fin grid0.N, win0_2.index t (0 : Fin 2) = q.val ∧ win0_2.index t (1 : Fin 2) = 0)

/-- THE REGION'S RESULT: after its ten points the output array is the whole product of the two arrays it found. -/
theorem result (c : Dev nD) : (dat0 V c).arrAt 2 cfg0.N = whole (V c main_arg0) (V c main_arg1) :=
  (dat0 V c).arrAt_eq_of_cover 2 (whole (V c main_arg0) (V c main_arg1)) (fun t _ => flushed_eq V c t) fun i => by
    have hi0 : (i 0).val < 100000 := (i 0).isLt
    have hi1 : (i 1).val < 64 := (i 1).isLt
    obtain ⟨t, q0, q1⟩ := idx_onto ⟨(i 0).val / 10000, by omega⟩
    refine ⟨t, flush0_2 t, ?_⟩
    rw [mem_blk]
    intro a
    match a with
    | ⟨0, _⟩ => show win0_2.index t (0 : Fin 2) * 10000 ≤ (i 0).val ∧ (i 0).val < win0_2.index t (0 : Fin 2) * 10000 + 10000; rw [q0]; dsimp only; omega
    | ⟨1, _⟩ => show win0_2.index t (1 : Fin 2) * 64 ≤ (i 1).val ∧ (i 1).val < win0_2.index t (1 : Fin 2) * 64 + 64; rw [q1]; omega

end Cert.KernelIdeal.Linear0

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.Bias1.lean ====
/-
  The tail of a graph-convolution layer: a bias vector, kept as a one-row matrix, added to every row of a matrix of
  100000 rows and 64 columns, and every entry cut off below at zero, ten thousand rows at a time.

  Grid point `t` reads rows `10000·t … 10000·t + 9999` of the matrix and the whole one-row bias, and writes
  `max (a (r, q) + b (0, q)) 0` back to the same rows of the result. The operation acts on each entry alone, so the ten
  blocks are the ten row blocks of the one array the host would compute by adding the bias row repeated over all rows
  and taking the maximum with the zero array.
-/
import proofs.«136478_j77360950935889_1_alg».proof.Proof.Gen.KernelIdeal.Frame
import proofs.«136478_j77360950935889_1_alg».proof.Proof.Gen.ReferenceIdeal
import proofs.«136478_j77360950935889_1_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole array as the host computes it: the bias row repeated over all rows, added, then the maximum with zero. -/
abbrev whole (a : FVec Ideal S100000x64 .f32) (b : FVec Ideal S1x64 .f32) : FVec Ideal S100000x64 .f32 :=
  maximumf (addf a (broadcastInDim S100000x64 ![0, 1] Cert.ReferenceIdeal.Facts₀.bcast_S1x64_S100000x64_0_1 b))
    (broadcastInDim S100000x64 ![] Cert.ReferenceIdeal.Facts₀.bcast_S_S100000x64 (constant S_ .f32 0x00000000#32))

theorem hz : (![0, 0] : Fin 2 → Nat) = fun _ => 0 := funext fun a => by fin_cases a <;> rfl

/-- Where the three windows' blocks sit at grid point `t`: the matrix's and the result's at row block `t`, the bias row's
    at the origin; and there are ten points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Row `a` of block `t` is row `10000·t + a` of the array. -/
def row (t : Fin cfg1.N) (a : Fin 10000) : Fin 100000 :=
  ⟨10000 * t.val + a.val, by have := (idx_facts t).2.2.2.2.2.2; have := a.isLt; omega⟩

/-- A block's result at an entry. -/
theorem block_apply (x : Vec Ideal S10000x64 .f32) (y : Vec Ideal S1x64 .f32) (r : Fin 10000) (q : Fin 64) :
    k1_pay1 x y (ix2 r q) = max (x (ix2 r q) + y (ix2 (0 : Fin 1) q)) (Ideal.ofBits .f32 0x00000000#32) := by
  unfold k1_pay1
  simp only [shapeCast_self]
  show max (x (ix2 r q) + broadcastTo S10000x64 y broadcasts_S1x64_S10000x64 (ix2 r q)) (Ideal.ofBits .f32 0x00000000#32) = _
  rw [broadcastTo_1b_ab_apply]

/-- The whole array at an entry. -/
theorem whole_apply (x : FVec Ideal S100000x64 .f32) (y : FVec Ideal S1x64 .f32) (r : Fin 100000) (q : Fin 64) :
    whole x y (ix2 r q) = max (x (ix2 r q) + y (ix2 (0 : Fin 1) q)) (Ideal.ofBits .f32 0x00000000#32) := by
  show max (x (ix2 r q) + broadcastInDim S100000x64 ![0, 1] Cert.ReferenceIdeal.Facts₀.bcast_S1x64_S100000x64_0_1 y (ix2 r q))
      (broadcastInDim S100000x64 ![] Cert.ReferenceIdeal.Facts₀.bcast_S_S100000x64 (constant S_ .f32 0x00000000#32) (ix2 r q)) = _
  rw [Cert.LibRowVector.inDimRows_apply, Cert.LibRowVector.inDimScalar_apply, constant_apply]

/-- The matrix's block at point `t` holds rows `10000·t …` of the array the region finds. -/
theorem left_block (c : Dev nD) (t : Fin cfg1.N) (a : Fin 10000) (q : Fin 64) :
    (iblk1 V c 0 t : Vec Ideal S10000x64 .f32) (ix2 a q) = (V c main_v43 : S100000x64.Idx → EReal) (ix2 (row t a) q) := by
  obtain ⟨e0, e1, -⟩ := idx_facts t
  unfold iblk1
  rw [View.read_apply]
  show (V c main_v43 : S100000x64.Idx → EReal) _ = _
  refine congrArg (V c main_v43 : S100000x64.Idx → EReal) (funext fun ax => Fin.ext ?_)
  match ax with
  | ⟨0, _⟩ => show win1_0.index t (0 : Fin 2) * 10000 + 1 * a.val = 10000 * t.val + a.val; rw [e0]; omega
  | ⟨1, _⟩ => show win1_0.index t (1 : Fin 2) * 64 + 1 * q.val = q.val; rw [e1]; omega

/-- The bias row's block at every point is the whole of the one-row array the region finds. -/
theorem right_block (c : Dev nD) (t : Fin cfg1.N) (u : Fin 1) (q : Fin 64) :
    (iblk1 V c 1 t : Vec Ideal S1x64 .f32) (ix2 u q) = (V c main_v44 : S1x64.Idx → EReal) (ix2 u q) := by
  obtain ⟨-, -, e2, e3, -⟩ := idx_facts t
  unfold iblk1
  rw [View.read_apply]
  show (V c main_v44 : S1x64.Idx → EReal) _ = _
  refine congrArg (V c main_v44 : S1x64.Idx → EReal) (funext fun ax => Fin.ext ?_)
  match ax with
  | ⟨0, _⟩ => show win1_1.index t (0 : Fin 2) * 1 + 1 * u.val = u.val; rw [e2]; omega
  | ⟨1, _⟩ => show win1_1.index t (1 : Fin 2) * 64 + 1 * q.val = q.val; rw [e3]; omega

/-- What point `t` writes back is block `t` of the whole array of the arrays the region finds. -/
theorem flushed_eq (c : Dev nD) (t : Fin cfg1.N) :
    (dat1 V c).flushed 2 t = ((cfg1.win 2).blk t).view.read (Elt Ideal) (whole (V c main_v43) (V c main_v44)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨-, -, -, -, e4, e5, -⟩ := idx_facts t
  funext j
  obtain ⟨a, q, rfl⟩ : ∃ (a : Fin 10000) (q : Fin 64), j = ix2 a q := ⟨j 0, j 1, eq_ix2 j⟩
  show k1_pay1 (iblk1 V c 0 t) (iblk1 V c 1 t) (ix2 a q)
    = whole (V c main_v43) (V c main_v44) (((cfg1.win 2).blk t).view.emb (ix2 a q))
  have he : ((cfg1.win 2).blk t).view.emb (ix2 a q) = ix2 (row t a) q := funext fun ax => Fin.ext (by
    match ax with
    | ⟨0, _⟩ => show win1_2.index t (0 : Fin 2) * 10000 + 1 * a.val = 10000 * t.val + a.val; rw [e4]; omega
    | ⟨1, _⟩ => show win1_2.index t (1 : Fin 2) * 64 + 1 * q.val = q.val; rw [e5]; omega)
  rw [he, whole_apply]
  refine (block_apply _ _ a q).trans ?_
  rw [left_block V c t a q, right_block V c t 0 q]

/-- An index of the result is in point `t`'s block iff its row is among that block's ten thousand. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

/-- Every block index of the result is some point's. -/
theorem idx_onto : ∀ q : Fin 10, ∃ t : Fin cfg1.N, win1_2.index t (0 : Fin 2) = q.val ∧ win1_2.index t (1 : Fin 2) = 0 :=
  (by decide +kernel : ∀ q : Fin 10, ∃ t : Fin grid1.N, win1_2.index t (0 : Fin 2) = q.val ∧ win1_2.index t (1 : Fin 2) = 0)

/-- THE REGION'S RESULT: after its ten points the output array is the whole array of the two arrays it found. -/
theorem result (c : Dev nD) : (dat1 V c).arrAt 2 cfg1.N = whole (V c main_v43) (V c main_v44) :=
  (dat1 V c).arrAt_eq_of_cover 2 (whole (V c main_v43) (V c main_v44)) (fun t _ => flushed_eq V c t) fun i => by
    have hi0 : (i 0).val < 100000 := (i 0).isLt
    have hi1 : (i 1).val < 64 := (i 1).isLt
    obtain ⟨t, q0, q1⟩ := idx_onto ⟨(i 0).val / 10000, by omega⟩
    refine ⟨t, flush1_2 t, ?_⟩
    rw [mem_blk]
    intro a
    match a with
    | ⟨0, _⟩ => show win1_2.index t (0 : Fin 2) * 10000 ≤ (i 0).val ∧ (i 0).val < win1_2.index t (0 : Fin 2) * 10000 + 10000; rw [q0]; dsimp only; omega
    | ⟨1, _⟩ => show win1_2.index t (1 : Fin 2) * 64 ≤ (i 1).val ∧ (i 1).val < win1_2.index t (1 : Fin 2) * 64 + 64; rw [q1]; omega

end Cert.KernelIdeal.Bias1

end
-- ==== Proof.Linear2.lean ====
/-
  The linear map of a graph-convolution layer, `h · W` for `h` of 100000 rows and 64 columns and `W` of 64 rows and
  32 columns, computed ten thousand rows at a time.

  Grid point `t` reads rows `10000·t … 10000·t + 9999` of `h` and the whole of `W`, multiplies them on the matrix
  unit into a zero accumulator (the factors rounded to bf16 first, which over the extended reals is the identity) and
  writes the product back to the same rows of the result. Entry `(a, b)` of a block's product is
  `∑ k, h (10000·t + a, k) · W (k, b)`: row `r` of a product depends on row `r` of the left factor only, so the ten
  blocks are the ten row blocks of the one product `h · W`, which is the host's general product of the two whole arrays.
-/
import proofs.«136478_j77360950935889_1_alg».proof.Proof.Gen.KernelIdeal.Frame
import proofs.«136478_j77360950935889_1_alg».proof.Proof.Gen.ReferenceIdeal
import proofs.«136478_j77360950935889_1_alg».proof.Proof.LibProduct
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole product `h · W` as the host computes it. -/
abbrev whole (h : FVec Ideal S100000x64 .f32) (w : FVec Ideal S64x32 .f32) : FVec Ideal S100000x32 .f32 :=
  Host.dotGeneral Cert.ReferenceIdeal.dot_S100000x64_S64x32_S100000x32_1_0_0_1_n_n none h w

theorem hz : (![0, 0] : Fin 2 → Nat) = fun _ => 0 := funext fun a => by fin_cases a <;> rfl

/-- Where the three windows' blocks sit at grid point `t`: the left factor's and the result's at row block `t`, the
    right factor's at the origin; and there are ten points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Row `a` of block `t` is row `10000·t + a` of the array. -/
def row (t : Fin cfg2.N) (a : Fin 10000) : Fin 100000 :=
  ⟨10000 * t.val + a.val, by have := (idx_facts t).2.2.2.2.2.2; have := a.isLt; omega⟩

/-- A block's product at an entry: the sum over the shared coordinate. -/
theorem block_apply (x0 : Vec Ideal S10000x64 .f32) (x1 : Vec Ideal S64x32 .f32) (a : Fin 10000) (b : Fin 32) :
    k2_pay1 x0 x1 (ix2 a b) = ∑ k : Fin 64, x0 (ix2 a k) * x1 (ix2 k b) := by
  unfold k2_pay1
  simp only [shapeCast_self]
  exact Cert.LibProduct.matmul_zero_apply dot_S10000x64_S64x32_S10000x32_1_0_0_1_n_n rfl rfl rfl rfl rfl rfl none
    (truncf .bf16 x0 bitsLt_bf16_f32) (truncf .bf16 x1 bitsLt_bf16_f32) a b

/-- The whole product at an entry. -/
theorem whole_apply (h : FVec Ideal S100000x64 .f32) (w : FVec Ideal S64x32 .f32) (r : Fin 100000) (b : Fin 32) :
    whole h w (ix2 r b) = ∑ k : Fin 64, h (ix2 r k) * w (ix2 k b) :=
  Cert.LibProduct.dotGeneral_apply Cert.ReferenceIdeal.dot_S100000x64_S64x32_S100000x32_1_0_0_1_n_n rfl rfl rfl rfl rfl rfl none h w r b

/-- The left factor's block at point `t` holds rows `10000·t …` of the array the region finds. -/
theorem left_block (c : Dev nD) (t : Fin cfg2.N) (a : Fin 10000) (k : Fin 64) :
    (iblk2 V c 0 t : Vec Ideal S10000x64 .f32) (ix2 a k) = (V c main_v45 : S100000x64.Idx → EReal) (ix2 (row t a) k) := by
  obtain ⟨e0, e1, -⟩ := idx_facts t
  unfold iblk2
  rw [View.read_apply]
  show (V c main_v45 : S100000x64.Idx → EReal) _ = _
  refine congrArg (V c main_v45 : S100000x64.Idx → EReal) (funext fun ax => Fin.ext ?_)
  match ax with
  | ⟨0, _⟩ => show win2_0.index t (0 : Fin 2) * 10000 + 1 * a.val = 10000 * t.val + a.val; rw [e0]; omega
  | ⟨1, _⟩ => show win2_0.index t (1 : Fin 2) * 64 + 1 * k.val = k.val; rw [e1]; omega

/-- The right factor's block at every point is the whole of the array the region finds. -/
theorem right_block (c : Dev nD) (t : Fin cfg2.N) (k : Fin 64) (b : Fin 32) :
    (iblk2 V c 1 t : Vec Ideal S64x32 .f32) (ix2 k b) = (V c main_arg3 : S64x32.Idx → EReal) (ix2 k b) := by
  obtain ⟨-, -, e2, e3, -⟩ := idx_facts t
  unfold iblk2
  rw [View.read_apply]
  show (V c main_arg3 : S64x32.Idx → EReal) _ = _
  refine congrArg (V c main_arg3 : S64x32.Idx → EReal) (funext fun ax => Fin.ext ?_)
  match ax with
  | ⟨0, _⟩ => show win2_1.index t (0 : Fin 2) * 64 + 1 * k.val = k.val; rw [e2]; omega
  | ⟨1, _⟩ => show win2_1.index t (1 : Fin 2) * 32 + 1 * b.val = b.val; rw [e3]; omega

/-- What point `t` writes back is block `t` of the whole product of the arrays the region finds. -/
theorem flushed_eq (c : Dev nD) (t : Fin cfg2.N) :
    (dat2 V c).flushed 2 t = ((cfg2.win 2).blk t).view.read (Elt Ideal) (whole (V c main_v45) (V c main_arg3)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x32) hz]
  obtain ⟨-, -, -, -, e4, e5, -⟩ := idx_facts t
  funext j
  obtain ⟨a, b, rfl⟩ : ∃ (a : Fin 10000) (b : Fin 32), j = ix2 a b := ⟨j 0, j 1, eq_ix2 j⟩
  show k2_pay1 (iblk2 V c 0 t) (iblk2 V c 1 t) (ix2 a b)
    = whole (V c main_v45) (V c main_arg3) (((cfg2.win 2).blk t).view.emb (ix2 a b))
  have he : ((cfg2.win 2).blk t).view.emb (ix2 a b) = ix2 (row t a) b := funext fun ax => Fin.ext (by
    match ax with
    | ⟨0, _⟩ => show win2_2.index t (0 : Fin 2) * 10000 + 1 * a.val = 10000 * t.val + a.val; rw [e4]; omega
    | ⟨1, _⟩ => show win2_2.index t (1 : Fin 2) * 32 + 1 * b.val = b.val; rw [e5]; omega)
  rw [he, whole_apply]
  refine (block_apply _ _ a b).trans (Finset.sum_congr rfl fun k _ => ?_)
  rw [left_block V c t a k, right_block V c t k b]

/-- An index of the result is in point `t`'s block iff its row is among that block's ten thousand. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole (Pipeline.arrRef spec2 2)).slice (win2_2.rect t)).set ↔ _
  rw [View.set_slice_whole, Rect.mem_set_unit]
  exact Iff.rfl

/-- Every block index of the result is some point's. -/
theorem idx_onto : ∀ q : Fin 10, ∃ t : Fin cfg2.N, win2_2.index t (0 : Fin 2) = q.val ∧ win2_2.index t (1 : Fin 2) = 0 :=
  (by decide +kernel : ∀ q : Fin 10, ∃ t : Fin grid2.N, win2_2.index t (0 : Fin 2) = q.val ∧ win2_2.index t (1 : Fin 2) = 0)

/-- THE REGION'S RESULT: after its ten points the output array is the whole product of the two arrays it found. -/
theorem result (c : Dev nD) : (dat2 V c).arrAt 2 cfg2.N = whole (V c main_v45) (V c main_arg3) :=
  (dat2 V c).arrAt_eq_of_cover 2 (whole (V c main_v45) (V c main_arg3)) (fun t _ => flushed_eq V c t) fun i => by
    have hi0 : (i 0).val < 100000 := (i 0).isLt
    have hi1 : (i 1).val < 32 := (i 1).isLt
    obtain ⟨t, q0, q1⟩ := idx_onto ⟨(i 0).val / 10000, by omega⟩
    refine ⟨t, flush2_2 t, ?_⟩
    rw [mem_blk]
    intro a
    match a with
    | ⟨0, _⟩ => show win2_2.index t (0 : Fin 2) * 10000 ≤ (i 0).val ∧ (i 0).val < win2_2.index t (0 : Fin 2) * 10000 + 10000; rw [q0]; dsimp only; omega
    | ⟨1, _⟩ => show win2_2.index t (1 : Fin 2) * 32 ≤ (i 1).val ∧ (i 1).val < win2_2.index t (1 : Fin 2) * 32 + 32; rw [q1]; omega

end Cert.KernelIdeal.Linear2

end
-- ==== Proof.Bias3.lean ====
/-
  The tail of a graph-convolution layer: a bias vector, kept as a one-row matrix, added to every row of a matrix of
  100000 rows and 32 columns, and every entry cut off below at zero, ten thousand rows at a time.

  Grid point `t` reads rows `10000·t … 10000·t + 9999` of the matrix and the whole one-row bias, and writes
  `max (a (r, q) + b (0, q)) 0` back to the same rows of the result. The operation acts on each entry alone, so the ten
  blocks are the ten row blocks of the one array the host would compute by adding the bias row repeated over all rows
  and taking the maximum with the zero array.
-/
import proofs.«136478_j77360950935889_1_alg».proof.Proof.Gen.KernelIdeal.Frame
import proofs.«136478_j77360950935889_1_alg».proof.Proof.Gen.ReferenceIdeal
import proofs.«136478_j77360950935889_1_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole array as the host computes it: the bias row repeated over all rows, added, then the maximum with zero. -/
abbrev whole (a : FVec Ideal S100000x32 .f32) (b : FVec Ideal S1x32 .f32) : FVec Ideal S100000x32 .f32 :=
  maximumf (addf a (broadcastInDim S100000x32 ![0, 1] Cert.ReferenceIdeal.Facts₀.bcast_S1x32_S100000x32_0_1 b))
    (broadcastInDim S100000x32 ![] Cert.ReferenceIdeal.Facts₀.bcast_S_S100000x32 (constant S_ .f32 0x00000000#32))

theorem hz : (![0, 0] : Fin 2 → Nat) = fun _ => 0 := funext fun a => by fin_cases a <;> rfl

/-- Where the three windows' blocks sit at grid point `t`: the matrix's and the result's at row block `t`, the bias row's
    at the origin; and there are ten points. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- Row `a` of block `t` is row `10000·t + a` of the array. -/
def row (t : Fin cfg3.N) (a : Fin 10000) : Fin 100000 :=
  ⟨10000 * t.val + a.val, by have := (idx_facts t).2.2.2.2.2.2; have := a.isLt; omega⟩

/-- A block's result at an entry. -/
theorem block_apply (x : Vec Ideal S10000x32 .f32) (y : Vec Ideal S1x32 .f32) (r : Fin 10000) (q : Fin 32) :
    k3_pay1 x y (ix2 r q) = max (x (ix2 r q) + y (ix2 (0 : Fin 1) q)) (Ideal.ofBits .f32 0x00000000#32) := by
  unfold k3_pay1
  simp only [shapeCast_self]
  show max (x (ix2 r q) + broadcastTo S10000x32 y broadcasts_S1x32_S10000x32 (ix2 r q)) (Ideal.ofBits .f32 0x00000000#32) = _
  rw [broadcastTo_1b_ab_apply]

/-- The whole array at an entry. -/
theorem whole_apply (x : FVec Ideal S100000x32 .f32) (y : FVec Ideal S1x32 .f32) (r : Fin 100000) (q : Fin 32) :
    whole x y (ix2 r q) = max (x (ix2 r q) + y (ix2 (0 : Fin 1) q)) (Ideal.ofBits .f32 0x00000000#32) := by
  show max (x (ix2 r q) + broadcastInDim S100000x32 ![0, 1] Cert.ReferenceIdeal.Facts₀.bcast_S1x32_S100000x32_0_1 y (ix2 r q))
      (broadcastInDim S100000x32 ![] Cert.ReferenceIdeal.Facts₀.bcast_S_S100000x32 (constant S_ .f32 0x00000000#32) (ix2 r q)) = _
  rw [Cert.LibRowVector.inDimRows_apply, Cert.LibRowVector.inDimScalar_apply, constant_apply]

/-- The matrix's block at point `t` holds rows `10000·t …` of the array the region finds. -/
theorem left_block (c : Dev nD) (t : Fin cfg3.N) (a : Fin 10000) (q : Fin 32) :
    (iblk3 V c 0 t : Vec Ideal S10000x32 .f32) (ix2 a q) = (V c main_v59 : S100000x32.Idx → EReal) (ix2 (row t a) q) := by
  obtain ⟨e0, e1, -⟩ := idx_facts t
  unfold iblk3
  rw [View.read_apply]
  show (V c main_v59 : S100000x32.Idx → EReal) _ = _
  refine congrArg (V c main_v59 : S100000x32.Idx → EReal) (funext fun ax => Fin.ext ?_)
  match ax with
  | ⟨0, _⟩ => show win3_0.index t (0 : Fin 2) * 10000 + 1 * a.val = 10000 * t.val + a.val; rw [e0]; omega
  | ⟨1, _⟩ => show win3_0.index t (1 : Fin 2) * 32 + 1 * q.val = q.val; rw [e1]; omega

/-- The bias row's block at every point is the whole of the one-row array the region finds. -/
theorem right_block (c : Dev nD) (t : Fin cfg3.N) (u : Fin 1) (q : Fin 32) :
    (iblk3 V c 1 t : Vec Ideal S1x32 .f32) (ix2 u q) = (V c main_v60 : S1x32.Idx → EReal) (ix2 u q) := by
  obtain ⟨-, -, e2, e3, -⟩ := idx_facts t
  unfold iblk3
  rw [View.read_apply]
  show (V c main_v60 : S1x32.Idx → EReal) _ = _
  refine congrArg (V c main_v60 : S1x32.Idx → EReal) (funext fun ax => Fin.ext ?_)
  match ax with
  | ⟨0, _⟩ => show win3_1.index t (0 : Fin 2) * 1 + 1 * u.val = u.val; rw [e2]; omega
  | ⟨1, _⟩ => show win3_1.index t (1 : Fin 2) * 32 + 1 * q.val = q.val; rw [e3]; omega

/-- What point `t` writes back is block `t` of the whole array of the arrays the region finds. -/
theorem flushed_eq (c : Dev nD) (t : Fin cfg3.N) :
    (dat3 V c).flushed 2 t = ((cfg3.win 2).blk t).view.read (Elt Ideal) (whole (V c main_v59) (V c main_v60)) := by
  show (cfg3.win 2).cut (grid3.coords t) ((dat3 V c).after 2 t) = _
  rw [after3_2]
  unfold out3_2
  rw [View.canon_unit_zero hz]
  simp only [View.ld_unit_zero (S := S10000x32) hz, View.ld_unit_zero (S := S1x32) hz]
  obtain ⟨-, -, -, -, e4, e5, -⟩ := idx_facts t
  funext j
  obtain ⟨a, q, rfl⟩ : ∃ (a : Fin 10000) (q : Fin 32), j = ix2 a q := ⟨j 0, j 1, eq_ix2 j⟩
  show k3_pay1 (iblk3 V c 0 t) (iblk3 V c 1 t) (ix2 a q)
    = whole (V c main_v59) (V c main_v60) (((cfg3.win 2).blk t).view.emb (ix2 a q))
  have he : ((cfg3.win 2).blk t).view.emb (ix2 a q) = ix2 (row t a) q := funext fun ax => Fin.ext (by
    match ax with
    | ⟨0, _⟩ => show win3_2.index t (0 : Fin 2) * 10000 + 1 * a.val = 10000 * t.val + a.val; rw [e4]; omega
    | ⟨1, _⟩ => show win3_2.index t (1 : Fin 2) * 32 + 1 * q.val = q.val; rw [e5]; omega)
  rw [he, whole_apply]
  refine (block_apply _ _ a q).trans ?_
  rw [left_block V c t a q, right_block V c t 0 q]

/-- An index of the result is in point `t`'s block iff its row is among that block's ten thousand. -/
theorem mem_blk (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole (Pipeline.arrRef spec3 2)).slice (win3_2.rect t)).set ↔ _
  rw [View.set_slice_whole, Rect.mem_set_unit]
  exact Iff.rfl

/-- Every block index of the result is some point's. -/
theorem idx_onto : ∀ q : Fin 10, ∃ t : Fin cfg3.N, win3_2.index t (0 : Fin 2) = q.val ∧ win3_2.index t (1 : Fin 2) = 0 :=
  (by decide +kernel : ∀ q : Fin 10, ∃ t : Fin grid3.N, win3_2.index t (0 : Fin 2) = q.val ∧ win3_2.index t (1 : Fin 2) = 0)

/-- THE REGION'S RESULT: after its ten points the output array is the whole array of the two arrays it found. -/
theorem result (c : Dev nD) : (dat3 V c).arrAt 2 cfg3.N = whole (V c main_v59) (V c main_v60) :=
  (dat3 V c).arrAt_eq_of_cover 2 (whole (V c main_v59) (V c main_v60)) (fun t _ => flushed_eq V c t) fun i => by
    have hi0 : (i 0).val < 100000 := (i 0).isLt
    have hi1 : (i 1).val < 32 := (i 1).isLt
    obtain ⟨t, q0, q1⟩ := idx_onto ⟨(i 0).val / 10000, by omega⟩
    refine ⟨t, flush3_2 t, ?_⟩
    rw [mem_blk]
    intro a
    match a with
    | ⟨0, _⟩ => show win3_2.index t (0 : Fin 2) * 10000 ≤ (i 0).val ∧ (i 0).val < win3_2.index t (0 : Fin 2) * 10000 + 10000; rw [q0]; dsimp only; omega
    | ⟨1, _⟩ => show win3_2.index t (1 : Fin 2) * 32 ≤ (i 1).val ∧ (i 1).val < win3_2.index t (1 : Fin 2) * 32 + 32; rw [q1]; omega

end Cert.KernelIdeal.Bias3

end
-- ==== Proof.Linear4.lean ====
/-
  The linear map of a graph-convolution layer, `h · W` for `h` of 100000 rows and 32 columns and `W` of 32 rows and
  16 columns, computed ten thousand rows at a time.

  Grid point `t` reads rows `10000·t … 10000·t + 9999` of `h` and the whole of `W`, multiplies them on the matrix
  unit into a zero accumulator (the factors rounded to bf16 first, which over the extended reals is the identity) and
  writes the product back to the same rows of the result. Entry `(a, b)` of a block's product is
  `∑ k, h (10000·t + a, k) · W (k, b)`: row `r` of a product depends on row `r` of the left factor only, so the ten
  blocks are the ten row blocks of the one product `h · W`, which is the host's general product of the two whole arrays.
-/
import proofs.«136478_j77360950935889_1_alg».proof.Proof.Gen.KernelIdeal.Frame
import proofs.«136478_j77360950935889_1_alg».proof.Proof.Gen.ReferenceIdeal
import proofs.«136478_j77360950935889_1_alg».proof.Proof.LibProduct
import Idealize.ShloMosaic.Lib.Pipeline.Value
import Idealize.ShloMosaic.Lib.ValueIdx
import Idealize.ShloMosaic.PureOps.Ideal.Laws

set_option maxRecDepth 16384

noncomputable section

namespace Cert.KernelIdeal.Linear4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole product `h · W` as the host computes it. -/
abbrev whole (h : FVec Ideal S100000x32 .f32) (w : FVec Ideal S32x16 .f32) : FVec Ideal S100000x16 .f32 :=
  Host.dotGeneral Cert.ReferenceIdeal.dot_S100000x32_S32x16_S100000x16_1_0_0_1_n_n none h w

theorem hz : (![0, 0] : Fin 2 → Nat) = fun _ => 0 := funext fun a => by fin_cases a <;> rfl

/-- Where the three windows' blocks sit at grid point `t`: the left factor's and the result's at row block `t`, the
    right factor's at the origin; and there are ten points. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- Row `a` of block `t` is row `10000·t + a` of the array. -/
def row (t : Fin cfg4.N) (a : Fin 10000) : Fin 100000 :=
  ⟨10000 * t.val + a.val, by have := (idx_facts t).2.2.2.2.2.2; have := a.isLt; omega⟩

/-- A block's product at an entry: the sum over the shared coordinate. -/
theorem block_apply (x0 : Vec Ideal S10000x32 .f32) (x1 : Vec Ideal S32x16 .f32) (a : Fin 10000) (b : Fin 16) :
    k4_pay1 x0 x1 (ix2 a b) = ∑ k : Fin 32, x0 (ix2 a k) * x1 (ix2 k b) := by
  unfold k4_pay1
  simp only [shapeCast_self]
  exact Cert.LibProduct.matmul_zero_apply dot_S10000x32_S32x16_S10000x16_1_0_0_1_n_n rfl rfl rfl rfl rfl rfl none
    (truncf .bf16 x0 bitsLt_bf16_f32) (truncf .bf16 x1 bitsLt_bf16_f32) a b

/-- The whole product at an entry. -/
theorem whole_apply (h : FVec Ideal S100000x32 .f32) (w : FVec Ideal S32x16 .f32) (r : Fin 100000) (b : Fin 16) :
    whole h w (ix2 r b) = ∑ k : Fin 32, h (ix2 r k) * w (ix2 k b) :=
  Cert.LibProduct.dotGeneral_apply Cert.ReferenceIdeal.dot_S100000x32_S32x16_S100000x16_1_0_0_1_n_n rfl rfl rfl rfl rfl rfl none h w r b

/-- The left factor's block at point `t` holds rows `10000·t …` of the array the region finds. -/
theorem left_block (c : Dev nD) (t : Fin cfg4.N) (a : Fin 10000) (k : Fin 32) :
    (iblk4 V c 0 t : Vec Ideal S10000x32 .f32) (ix2 a k) = (V c main_v61 : S100000x32.Idx → EReal) (ix2 (row t a) k) := by
  obtain ⟨e0, e1, -⟩ := idx_facts t
  unfold iblk4
  rw [View.read_apply]
  show (V c main_v61 : S100000x32.Idx → EReal) _ = _
  refine congrArg (V c main_v61 : S100000x32.Idx → EReal) (funext fun ax => Fin.ext ?_)
  match ax with
  | ⟨0, _⟩ => show win4_0.index t (0 : Fin 2) * 10000 + 1 * a.val = 10000 * t.val + a.val; rw [e0]; omega
  | ⟨1, _⟩ => show win4_0.index t (1 : Fin 2) * 32 + 1 * k.val = k.val; rw [e1]; omega

/-- The right factor's block at every point is the whole of the array the region finds. -/
theorem right_block (c : Dev nD) (t : Fin cfg4.N) (k : Fin 32) (b : Fin 16) :
    (iblk4 V c 1 t : Vec Ideal S32x16 .f32) (ix2 k b) = (V c main_arg5 : S32x16.Idx → EReal) (ix2 k b) := by
  obtain ⟨-, -, e2, e3, -⟩ := idx_facts t
  unfold iblk4
  rw [View.read_apply]
  show (V c main_arg5 : S32x16.Idx → EReal) _ = _
  refine congrArg (V c main_arg5 : S32x16.Idx → EReal) (funext fun ax => Fin.ext ?_)
  match ax with
  | ⟨0, _⟩ => show win4_1.index t (0 : Fin 2) * 32 + 1 * k.val = k.val; rw [e2]; omega
  | ⟨1, _⟩ => show win4_1.index t (1 : Fin 2) * 16 + 1 * b.val = b.val; rw [e3]; omega

/-- What point `t` writes back is block `t` of the whole product of the arrays the region finds. -/
theorem flushed_eq (c : Dev nD) (t : Fin cfg4.N) :
    (dat4 V c).flushed 2 t = ((cfg4.win 2).blk t).view.read (Elt Ideal) (whole (V c main_v61) (V c main_arg5)) := by
  show (cfg4.win 2).cut (grid4.coords t) ((dat4 V c).after 2 t) = _
  rw [after4_2]
  unfold out4_2
  rw [View.canon_unit_zero hz]
  simp only [View.ld_unit_zero (S := S10000x32) hz, View.ld_unit_zero (S := S32x16) hz]
  obtain ⟨-, -, -, -, e4, e5, -⟩ := idx_facts t
  funext j
  obtain ⟨a, b, rfl⟩ : ∃ (a : Fin 10000) (b : Fin 16), j = ix2 a b := ⟨j 0, j 1, eq_ix2 j⟩
  show k4_pay1 (iblk4 V c 0 t) (iblk4 V c 1 t) (ix2 a b)
    = whole (V c main_v61) (V c main_arg5) (((cfg4.win 2).blk t).view.emb (ix2 a b))
  have he : ((cfg4.win 2).blk t).view.emb (ix2 a b) = ix2 (row t a) b := funext fun ax => Fin.ext (by
    match ax with
    | ⟨0, _⟩ => show win4_2.index t (0 : Fin 2) * 10000 + 1 * a.val = 10000 * t.val + a.val; rw [e4]; omega
    | ⟨1, _⟩ => show win4_2.index t (1 : Fin 2) * 16 + 1 * b.val = b.val; rw [e5]; omega)
  rw [he, whole_apply]
  refine (block_apply _ _ a b).trans (Finset.sum_congr rfl fun k _ => ?_)
  rw [left_block V c t a k, right_block V c t k b]

/-- An index of the result is in point `t`'s block iff its row is among that block's ten thousand. -/
theorem mem_blk (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole (Pipeline.arrRef spec4 2)).slice (win4_2.rect t)).set ↔ _
  rw [View.set_slice_whole, Rect.mem_set_unit]
  exact Iff.rfl

/-- Every block index of the result is some point's. -/
theorem idx_onto : ∀ q : Fin 10, ∃ t : Fin cfg4.N, win4_2.index t (0 : Fin 2) = q.val ∧ win4_2.index t (1 : Fin 2) = 0 :=
  (by decide +kernel : ∀ q : Fin 10, ∃ t : Fin grid4.N, win4_2.index t (0 : Fin 2) = q.val ∧ win4_2.index t (1 : Fin 2) = 0)

/-- THE REGION'S RESULT: after its ten points the output array is the whole product of the two arrays it found. -/
theorem result (c : Dev nD) : (dat4 V c).arrAt 2 cfg4.N = whole (V c main_v61) (V c main_arg5) :=
  (dat4 V c).arrAt_eq_of_cover 2 (whole (V c main_v61) (V c main_arg5)) (fun t _ => flushed_eq V c t) fun i => by
    have hi0 : (i 0).val < 100000 := (i 0).isLt
    have hi1 : (i 1).val < 16 := (i 1).isLt
    obtain ⟨t, q0, q1⟩ := idx_onto ⟨(i 0).val / 10000, by omega⟩
    refine ⟨t, flush4_2 t, ?_⟩
    rw [mem_blk]
    intro a
    match a with
    | ⟨0, _⟩ => show win4_2.index t (0 : Fin 2) * 10000 ≤ (i 0).val ∧ (i 0).val < win4_2.index t (0 : Fin 2) * 10000 + 10000; rw [q0]; dsimp only; omega
    | ⟨1, _⟩ => show win4_2.index t (1 : Fin 2) * 16 ≤ (i 1).val ∧ (i 1).val < win4_2.index t (1 : Fin 2) * 16 + 16; rw [q1]; omega

end Cert.KernelIdeal.Linear4

end
-- ==== Proof.Bias5.lean ====
/-
  The tail of a graph-convolution layer: a bias vector, kept as a one-row matrix, added to every row of a matrix of
  100000 rows and 16 columns, ten thousand rows at a time.

  Grid point `t` reads rows `10000·t … 10000·t + 9999` of the matrix and the whole one-row bias, and writes
  `a (r, q) + b (0, q)` back to the same rows of the result. The operation acts on each entry alone, so the ten
  blocks are the ten row blocks of the one array the host would compute by adding the bias row repeated over all rows.
-/
import proofs.«136478_j77360950935889_1_alg».proof.Proof.Gen.KernelIdeal.Frame
import proofs.«136478_j77360950935889_1_alg».proof.Proof.Gen.ReferenceIdeal
import proofs.«136478_j77360950935889_1_alg».proof.Proof.LibRowVector
import Idealize.ShloMosaic.Lib.Pipeline.Value
import Idealize.ShloMosaic.Lib.ValueIdx
import Idealize.ShloMosaic.Lib.ValueLayout

set_option maxRecDepth 16384

noncomputable section

namespace Cert.KernelIdeal.Bias5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole array as the host computes it: the bias row repeated over all rows, added. -/
abbrev whole (a : FVec Ideal S100000x16 .f32) (b : FVec Ideal S1x16 .f32) : FVec Ideal S100000x16 .f32 :=
  addf a (broadcastInDim S100000x16 ![0, 1] Cert.ReferenceIdeal.Facts₀.bcast_S1x16_S100000x16_0_1 b)

theorem hz : (![0, 0] : Fin 2 → Nat) = fun _ => 0 := funext fun a => by fin_cases a <;> rfl

/-- Where the three windows' blocks sit at grid point `t`: the matrix's and the result's at row block `t`, the bias row's
    at the origin; and there are ten points. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 10 :=
  (by decide +kernel : ∀ t : Fin grid5.N, _)

/-- Row `a` of block `t` is row `10000·t + a` of the array. -/
def row (t : Fin cfg5.N) (a : Fin 10000) : Fin 100000 :=
  ⟨10000 * t.val + a.val, by have := (idx_facts t).2.2.2.2.2.2; have := a.isLt; omega⟩

/-- A block's result at an entry. -/
theorem block_apply (x : Vec Ideal S10000x16 .f32) (y : Vec Ideal S1x16 .f32) (r : Fin 10000) (q : Fin 16) :
    k5_pay1 x y (ix2 r q) = x (ix2 r q) + y (ix2 (0 : Fin 1) q) := by
  unfold k5_pay1
  simp only [shapeCast_self]
  show x (ix2 r q) + broadcastTo S10000x16 y broadcasts_S1x16_S10000x16 (ix2 r q) = _
  rw [broadcastTo_1b_ab_apply]

/-- The whole array at an entry. -/
theorem whole_apply (x : FVec Ideal S100000x16 .f32) (y : FVec Ideal S1x16 .f32) (r : Fin 100000) (q : Fin 16) :
    whole x y (ix2 r q) = x (ix2 r q) + y (ix2 (0 : Fin 1) q) := by
  show x (ix2 r q) + broadcastInDim S100000x16 ![0, 1] Cert.ReferenceIdeal.Facts₀.bcast_S1x16_S100000x16_0_1 y (ix2 r q) = _
  rw [Cert.LibRowVector.inDimRows_apply]

/-- The matrix's block at point `t` holds rows `10000·t …` of the array the region finds. -/
theorem left_block (c : Dev nD) (t : Fin cfg5.N) (a : Fin 10000) (q : Fin 16) :
    (iblk5 V c 0 t : Vec Ideal S10000x16 .f32) (ix2 a q) = (V c main_v75 : S100000x16.Idx → EReal) (ix2 (row t a) q) := by
  obtain ⟨e0, e1, -⟩ := idx_facts t
  unfold iblk5
  rw [View.read_apply]
  show (V c main_v75 : S100000x16.Idx → EReal) _ = _
  refine congrArg (V c main_v75 : S100000x16.Idx → EReal) (funext fun ax => Fin.ext ?_)
  match ax with
  | ⟨0, _⟩ => show win5_0.index t (0 : Fin 2) * 10000 + 1 * a.val = 10000 * t.val + a.val; rw [e0]; omega
  | ⟨1, _⟩ => show win5_0.index t (1 : Fin 2) * 16 + 1 * q.val = q.val; rw [e1]; omega

/-- The bias row's block at every point is the whole of the one-row array the region finds. -/
theorem right_block (c : Dev nD) (t : Fin cfg5.N) (u : Fin 1) (q : Fin 16) :
    (iblk5 V c 1 t : Vec Ideal S1x16 .f32) (ix2 u q) = (V c main_v76 : S1x16.Idx → EReal) (ix2 u q) := by
  obtain ⟨-, -, e2, e3, -⟩ := idx_facts t
  unfold iblk5
  rw [View.read_apply]
  show (V c main_v76 : S1x16.Idx → EReal) _ = _
  refine congrArg (V c main_v76 : S1x16.Idx → EReal) (funext fun ax => Fin.ext ?_)
  match ax with
  | ⟨0, _⟩ => show win5_1.index t (0 : Fin 2) * 1 + 1 * u.val = u.val; rw [e2]; omega
  | ⟨1, _⟩ => show win5_1.index t (1 : Fin 2) * 16 + 1 * q.val = q.val; rw [e3]; omega

/-- What point `t` writes back is block `t` of the whole array of the arrays the region finds. -/
theorem flushed_eq (c : Dev nD) (t : Fin cfg5.N) :
    (dat5 V c).flushed 2 t = ((cfg5.win 2).blk t).view.read (Elt Ideal) (whole (V c main_v75) (V c main_v76)) := by
  show (cfg5.win 2).cut (grid5.coords t) ((dat5 V c).after 2 t) = _
  rw [after5_2]
  unfold out5_2
  rw [View.canon_unit_zero hz]
  simp only [View.ld_unit_zero (S := S10000x16) hz, View.ld_unit_zero (S := S1x16) hz]
  obtain ⟨-, -, -, -, e4, e5, -⟩ := idx_facts t
  funext j
  obtain ⟨a, q, rfl⟩ : ∃ (a : Fin 10000) (q : Fin 16), j = ix2 a q := ⟨j 0, j 1, eq_ix2 j⟩
  show k5_pay1 (iblk5 V c 0 t) (iblk5 V c 1 t) (ix2 a q)
    = whole (V c main_v75) (V c main_v76) (((cfg5.win 2).blk t).view.emb (ix2 a q))
  have he : ((cfg5.win 2).blk t).view.emb (ix2 a q) = ix2 (row t a) q := funext fun ax => Fin.ext (by
    match ax with
    | ⟨0, _⟩ => show win5_2.index t (0 : Fin 2) * 10000 + 1 * a.val = 10000 * t.val + a.val; rw [e4]; omega
    | ⟨1, _⟩ => show win5_2.index t (1 : Fin 2) * 16 + 1 * q.val = q.val; rw [e5]; omega)
  rw [he, whole_apply]
  refine (block_apply _ _ a q).trans ?_
  rw [left_block V c t a q, right_block V c t 0 q]

/-- An index of the result is in point `t`'s block iff its row is among that block's ten thousand. -/
theorem mem_blk (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole (Pipeline.arrRef spec5 2)).slice (win5_2.rect t)).set ↔ _
  rw [View.set_slice_whole, Rect.mem_set_unit]
  exact Iff.rfl

/-- Every block index of the result is some point's. -/
theorem idx_onto : ∀ q : Fin 10, ∃ t : Fin cfg5.N, win5_2.index t (0 : Fin 2) = q.val ∧ win5_2.index t (1 : Fin 2) = 0 :=
  (by decide +kernel : ∀ q : Fin 10, ∃ t : Fin grid5.N, win5_2.index t (0 : Fin 2) = q.val ∧ win5_2.index t (1 : Fin 2) = 0)

/-- THE REGION'S RESULT: after its ten points the output array is the whole array of the two arrays it found. -/
theorem result (c : Dev nD) : (dat5 V c).arrAt 2 cfg5.N = whole (V c main_v75) (V c main_v76) :=
  (dat5 V c).arrAt_eq_of_cover 2 (whole (V c main_v75) (V c main_v76)) (fun t _ => flushed_eq V c t) fun i => by
    have hi0 : (i 0).val < 100000 := (i 0).isLt
    have hi1 : (i 1).val < 16 := (i 1).isLt
    obtain ⟨t, q0, q1⟩ := idx_onto ⟨(i 0).val / 10000, by omega⟩
    refine ⟨t, flush5_2 t, ?_⟩
    rw [mem_blk]
    intro a
    match a with
    | ⟨0, _⟩ => show win5_2.index t (0 : Fin 2) * 10000 ≤ (i 0).val ∧ (i 0).val < win5_2.index t (0 : Fin 2) * 10000 + 10000; rw [q0]; dsimp only; omega
    | ⟨1, _⟩ => show win5_2.index t (1 : Fin 2) * 16 ≤ (i 1).val ∧ (i 1).val < win5_2.index t (1 : Fin 2) * 16 + 16; rw [q1]; omega

end Cert.KernelIdeal.Bias5

end
-- ==== Proof.Output6.lean ====
/-
  The output layer: the pooled features, 1000 rows of 16, times a 16 by 1 weight, plus a bias kept as a 1 by 1
  matrix, cut off below at zero — in one grid point on whole arrays.

  The one point reads the three operands whole, multiplies on the matrix unit into a zero accumulator (the factors
  rounded to bf16 first, the identity over the extended reals), adds the bias row to every row and takes the maximum
  with zero: entry `(r, q)` is `max (∑ k, p (r, k) · w (k, q) + b (0, q)) 0`, which is the entry of the array the host
  computes by its general product, the bias row repeated over all rows, and the maximum with the zero array.
-/
import proofs.«136478_j77360950935889_1_alg».proof.Proof.Gen.KernelIdeal.Frame
import proofs.«136478_j77360950935889_1_alg».proof.Proof.Gen.ReferenceIdeal
import proofs.«136478_j77360950935889_1_alg».proof.Proof.LibProduct
import proofs.«136478_j77360950935889_1_alg».proof.Proof.LibRowVector
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Output6

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole output as the host computes it. -/
abbrev whole (p : FVec Ideal S1000x16 .f32) (w : FVec Ideal S16x1 .f32) (b : FVec Ideal S1x1 .f32) : FVec Ideal S1000x1 .f32 :=
  maximumf (addf (Host.dotGeneral Cert.ReferenceIdeal.dot_S1000x16_S16x1_S1000x1_1_0_0_1_n_n none p w) (broadcastInDim S1000x1 ![0, 1] Cert.ReferenceIdeal.Facts₀.bcast_S1x1_S1000x1_0_1 b))
    (broadcastInDim S1000x1 ![] Cert.ReferenceIdeal.Facts₀.bcast_S_S1000x1 (constant S_ .f32 0x00000000#32))

theorem hz : (![0, 0] : Fin 2 → Nat) = fun _ => 0 := funext fun a => by fin_cases a <;> rfl

/-- Every window's one block sits at the origin. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The point's result at an entry. -/
theorem block_apply (p : Vec Ideal S1000x16 .f32) (w : Vec Ideal S16x1 .f32) (y : Vec Ideal S1x1 .f32) (r : Fin 1000) (q : Fin 1) :
    k6_pay1 p w y (ix2 r q) = max ((∑ k : Fin 16, p (ix2 r k) * w (ix2 k q)) + y (ix2 (0 : Fin 1) q)) (Ideal.ofBits .f32 0x00000000#32) := by
  unfold k6_pay1
  simp only [shapeCast_self]
  show max (FloatOps.matmul (F := Ideal) dot_S1000x16_S16x1_S1000x1_1_0_0_1_n_n none (truncf .bf16 p bitsLt_bf16_f32) (truncf .bf16 w bitsLt_bf16_f32)
      (constant S1000x1 .f32 0x00000000#32) (ix2 r q) + broadcastTo S1000x1 y broadcasts_S1x1_S1000x1 (ix2 r q))
    (Ideal.ofBits .f32 0x00000000#32) = _
  rw [broadcastTo_1b_ab_apply, Cert.LibProduct.matmul_zero_apply dot_S1000x16_S16x1_S1000x1_1_0_0_1_n_n rfl rfl rfl rfl rfl rfl none]
  rfl

/-- The whole output at an entry. -/
theorem whole_apply (p : FVec Ideal S1000x16 .f32) (w : FVec Ideal S16x1 .f32) (y : FVec Ideal S1x1 .f32) (r : Fin 1000) (q : Fin 1) :
    whole p w y (ix2 r q) = max ((∑ k : Fin 16, p (ix2 r k) * w (ix2 k q)) + y (ix2 (0 : Fin 1) q)) (Ideal.ofBits .f32 0x00000000#32) := by
  show max (Host.dotGeneral Cert.ReferenceIdeal.dot_S1000x16_S16x1_S1000x1_1_0_0_1_n_n none p w (ix2 r q) + broadcastInDim S1000x1 ![0, 1] Cert.ReferenceIdeal.Facts₀.bcast_S1x1_S1000x1_0_1 y (ix2 r q))
      (broadcastInDim S1000x1 ![] Cert.ReferenceIdeal.Facts₀.bcast_S_S1000x1 (constant S_ .f32 0x00000000#32) (ix2 r q)) = _
  rw [Cert.LibRowVector.inDimRows_apply, Cert.LibRowVector.inDimScalar_apply, constant_apply,
    Cert.LibProduct.dotGeneral_apply Cert.ReferenceIdeal.dot_S1000x16_S16x1_S1000x1_1_0_0_1_n_n rfl rfl rfl rfl rfl rfl none]

/-- Each operand's block is the whole of the array the region finds. -/
theorem block0 (c : Dev nD) (t : Fin cfg6.N) (r : Fin 1000) (k : Fin 16) :
    (iblk6 V c 0 t : Vec Ideal S1000x16 .f32) (ix2 r k) = (V c main_v89 : S1000x16.Idx → EReal) (ix2 r k) := by
  obtain ⟨e0, e1, -⟩ := idx_facts t
  unfold iblk6
  rw [View.read_apply]
  show (V c main_v89 : S1000x16.Idx → EReal) _ = _
  refine congrArg (V c main_v89 : S1000x16.Idx → EReal) (funext fun ax => Fin.ext ?_)
  match ax with
  | ⟨0, _⟩ => show win6_0.index t (0 : Fin 2) * 1000 + 1 * r.val = r.val; rw [e0]; omega
  | ⟨1, _⟩ => show win6_0.index t (1 : Fin 2) * 16 + 1 * k.val = k.val; rw [e1]; omega

theorem block1 (c : Dev nD) (t : Fin cfg6.N) (k : Fin 16) (q : Fin 1) :
    (iblk6 V c 1 t : Vec Ideal S16x1 .f32) (ix2 k q) = (V c main_arg7 : S16x1.Idx → EReal) (ix2 k q) := by
  obtain ⟨-, -, e2, e3, -⟩ := idx_facts t
  unfold iblk6
  rw [View.read_apply]
  show (V c main_arg7 : S16x1.Idx → EReal) _ = _
  refine congrArg (V c main_arg7 : S16x1.Idx → EReal) (funext fun ax => Fin.ext ?_)
  match ax with
  | ⟨0, _⟩ => show win6_1.index t (0 : Fin 2) * 16 + 1 * k.val = k.val; rw [e2]; omega
  | ⟨1, _⟩ => show win6_1.index t (1 : Fin 2) * 1 + 1 * q.val = q.val; rw [e3]; omega

theorem block2 (c : Dev nD) (t : Fin cfg6.N) (u : Fin 1) (q : Fin 1) :
    (iblk6 V c 2 t : Vec Ideal S1x1 .f32) (ix2 u q) = (V c main_v90 : S1x1.Idx → EReal) (ix2 u q) := by
  obtain ⟨-, -, -, -, e4, e5, -⟩ := idx_facts t
  unfold iblk6
  rw [View.read_apply]
  show (V c main_v90 : S1x1.Idx → EReal) _ = _
  refine congrArg (V c main_v90 : S1x1.Idx → EReal) (funext fun ax => Fin.ext ?_)
  match ax with
  | ⟨0, _⟩ => show win6_2.index t (0 : Fin 2) * 1 + 1 * u.val = u.val; rw [e4]; omega
  | ⟨1, _⟩ => show win6_2.index t (1 : Fin 2) * 1 + 1 * q.val = q.val; rw [e5]; omega

/-- What the point writes back is the whole output of the arrays the region finds, read through the one block. -/
theorem flushed_eq (c : Dev nD) (t : Fin cfg6.N) :
    (dat6 V c).flushed 3 t = ((cfg6.win 3).blk t).view.read (Elt Ideal) (whole (V c main_v89) (V c main_arg7) (V c main_v90)) := by
  show (cfg6.win 3).cut (grid6.coords t) ((dat6 V c).after 3 t) = _
  rw [after6_3]
  unfold out6_3
  rw [View.canon_unit_zero hz]
  simp only [View.ld_unit_zero (S := S1000x16) hz, View.ld_unit_zero (S := S16x1) hz, View.ld_unit_zero (S := S1x1) hz]
  obtain ⟨-, -, -, -, -, -, e6, e7⟩ := idx_facts t
  funext j
  obtain ⟨r, q, rfl⟩ : ∃ (r : Fin 1000) (q : Fin 1), j = ix2 r q := ⟨j 0, j 1, eq_ix2 j⟩
  show k6_pay1 (iblk6 V c 0 t) (iblk6 V c 1 t) (iblk6 V c 2 t) (ix2 r q)
    = whole (V c main_v89) (V c main_arg7) (V c main_v90) (((cfg6.win 3).blk t).view.emb (ix2 r q))
  have he : ((cfg6.win 3).blk t).view.emb (ix2 r q) = ix2 r q := funext fun ax => Fin.ext (by
    match ax with
    | ⟨0, _⟩ => show win6_3.index t (0 : Fin 2) * 1000 + 1 * r.val = r.val; rw [e6]; omega
    | ⟨1, _⟩ => show win6_3.index t (1 : Fin 2) * 1 + 1 * q.val = q.val; rw [e7]; omega)
  rw [he, whole_apply]
  refine (block_apply _ _ _ r q).trans ?_
  rw [block2 V c t 0 q]
  refine congrArg (fun s => max (s + (V c main_v90 : S1x1.Idx → EReal) (ix2 (0 : Fin 1) q)) (Ideal.ofBits .f32 0x00000000#32))
    (Finset.sum_congr rfl fun k _ => ?_)
  rw [block0 V c t r k, block1 V c t k q]

/-- An index of the result is in the point's block iff each coordinate is in the block's range. -/
theorem mem_blk (t : Fin cfg6.N) (i : S1000x1.Idx) :
    i ∈ ((cfg6.win 3).blk t).view.set ↔ ∀ a : Fin 2, win6_3.index t a * S1000x1.size a ≤ (i a).val ∧ (i a).val < win6_3.index t a * S1000x1.size a + S1000x1.size a := by
  show i ∈ ((View.whole (Pipeline.arrRef spec6 3)).slice (win6_3.rect t)).set ↔ _
  rw [View.set_slice_whole, Rect.mem_set_unit]
  exact Iff.rfl

/-- There is a grid point. -/
theorem a_point : ∃ t : Fin cfg6.N, True := (by decide +kernel : ∃ t : Fin grid6.N, True)

/-- THE REGION'S RESULT: the output array is the whole output of the three arrays it found. -/
theorem result (c : Dev nD) : (dat6 V c).arrAt 3 cfg6.N = whole (V c main_v89) (V c main_arg7) (V c main_v90) :=
  (dat6 V c).arrAt_eq_of_cover 3 (whole (V c main_v89) (V c main_arg7) (V c main_v90)) (fun t _ => flushed_eq V c t) fun i => by
    have hi0 : (i 0).val < 1000 := (i 0).isLt
    have hi1 : (i 1).val < 1 := (i 1).isLt
    obtain ⟨t, -⟩ := a_point
    obtain ⟨-, -, -, -, -, -, e6, e7⟩ := idx_facts t
    refine ⟨t, flush6_3 t, ?_⟩
    rw [mem_blk]
    intro a
    match a with
    | ⟨0, _⟩ => show win6_3.index t (0 : Fin 2) * 1000 ≤ (i 0).val ∧ (i 0).val < win6_3.index t (0 : Fin 2) * 1000 + 1000; rw [e6]; omega
    | ⟨1, _⟩ => show win6_3.index t (1 : Fin 2) * 1 ≤ (i 1).val ∧ (i 1).val < win6_3.index t (1 : Fin 2) * 1 + 1; rw [e7]; omega

end Cert.KernelIdeal.Output6

end
-- ==== Proof.LibOneRow.lean ====
/-
  A vector as a one-row matrix, two spellings, at any length.

  A vector `v` of length `n` becomes the matrix `[1, n]` either by a shape cast (the row-major order of the one row is
  the vector's) or by broadcasting along its own axis into the second axis of `[1, n]`. Both read `v q` at `(0, q)`, so
  they are the same array.
-/
import Idealize.ShloMosaic.Lib.Pipeline.Value
import Idealize.ShloMosaic.Lib.ValueIdx
import Idealize.ShloMosaic.Lib.ValueLayout

noncomputable section

namespace Cert.LibOneRow

open Idealize.ShloMosaic Idealize.ShloMosaic.ValueIdx

variable {α : Type} {n : ℕ}

/-- The vector broadcast along its own axis to one row reads `v q` at `(u, q)`. -/
theorem inDim_apply (v : (⟨1, ![n]⟩ : Shape).Idx → α)
    (h : (⟨1, ![n]⟩ : Shape).BroadcastsInDim ⟨2, ![1, n]⟩ ![1]) (u : Fin 1) (q : Fin n) :
    broadcastInDim ⟨2, ![1, n]⟩ ![1] h v (ix2 u q) = v (ix1 q) :=
  broadcastInDim_apply ![1] h v (ix2 u q) (ix1 q) (fun a => by
    match a with
    | ⟨0, _⟩ =>
      show q.val = if n = 1 then 0 else q.val
      split
      · have := q.isLt; omega
      · rfl)

/-- The cast of a vector to one row is its broadcast to one row. -/
theorem cast_eq_inDim (v : (⟨1, ![n]⟩ : Shape).Idx → α) (h1 : (⟨1, ![n]⟩ : Shape).ShapeCasts ⟨2, ![1, n]⟩)
    (h2 : (⟨1, ![n]⟩ : Shape).BroadcastsInDim ⟨2, ![1, n]⟩ ![1]) :
    shapeCast ⟨2, ![1, n]⟩ v h1 = broadcastInDim ⟨2, ![1, n]⟩ ![1] h2 v := by
  funext j
  obtain ⟨u, q, rfl⟩ : ∃ (u : Fin 1) (q : Fin n), j = ix2 u q := ⟨j 0, j 1, eq_ix2 j⟩
  rw [shapeCast_a_1a_apply, inDim_apply]

end Cert.LibOneRow

end
-- ==== Proof.Chain.lean ====
/-
  The kernel's program computes the network: its result array, followed back through the chain of segments.

  The program is seven pipelined regions among stretches of host operations. Each region's output array is one
  whole-array function of the arrays it found (the linear map, the bias and rectifier, the output layer: one module
  each); each host stretch's results are its operations' composed term of the buffers it found. Following the chain from
  the first region's entry, where the edge endpoints, the edge weights and the arguments are known, every boundary's
  contents are named as a stretch of `Net.net`: the first layer's linear map, its aggregated messages, its bias row, its
  output; the same for the second and third layers; the pooled features; the output layer. The host stretches are the
  same operations the network's definitions are written with, so each of those steps closes by unfolding.
-/
import proofs.«136478_j77360950935889_1_alg».proof.Proof.Carry
import proofs.«136478_j77360950935889_1_alg».proof.Proof.Linear0
import proofs.«136478_j77360950935889_1_alg».proof.Proof.Bias1
import proofs.«136478_j77360950935889_1_alg».proof.Proof.Linear2
import proofs.«136478_j77360950935889_1_alg».proof.Proof.Bias3
import proofs.«136478_j77360950935889_1_alg».proof.Proof.Linear4
import proofs.«136478_j77360950935889_1_alg».proof.Proof.Bias5
import proofs.«136478_j77360950935889_1_alg».proof.Proof.Output6
import proofs.«136478_j77360950935889_1_alg».proof.Proof.LibOneRow

set_option maxRecDepth 16384

noncomputable section

namespace Cert.KernelIdeal.Chain

open Cert.KernelIdeal Cert.KernelIdeal.Gen Cert.KernelIdeal.Carry Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first layer -/

/-- The first region leaves the first layer's linear map of the node features. -/
theorem lin1 : (W4 m ρ c (Proc.devRef .tc main_v30) : Floats Ideal S100000x64) = linear1 (m ((c : Thread nD τ).loc main_arg0)) (m ((c : Thread nD τ).loc main_arg1)) :=
  (W4_arr m ρ c 2).trans ((Cert.KernelIdeal.Linear0.result (V3 m ρ) c).trans (by
    show Cert.KernelIdeal.Linear0.whole (W3 m ρ c (Proc.devRef .tc main_arg0)) (W3 m ρ c (Proc.devRef .tc main_arg1)) = _
    rw [at3_main_arg0 m ρ c, at3_main_arg1 m ρ c]
    rfl))

/-- The host stretch after it gathers the rows along the edges, weighs them and sums them at the targets. -/
theorem agg1 : (W5 m ρ c (Proc.devRef .tc main_v43) : Floats Ideal S100000x64) = aggregate64 (m ((c : Thread nD τ).loc main_arg9)) (linear1 (m ((c : Thread nD τ).loc main_arg0)) (m ((c : Thread nD τ).loc main_arg1))) := by
  show StableHlo.after hostOps1 (W4 m ρ c) (Proc.devRef .tc main_v43) = _
  dsimp only [hostOps1]
  after_results_simp
  rw [at4_main_v3 m ρ c, at4_main_v6 m ρ c, at4_main_v29 m ρ c, lin1 m ρ c]
  rfl

/-- The same stretch lays the first bias out as one row. -/
theorem row1 : (W5 m ρ c (Proc.devRef .tc main_v44) : Floats Ideal S1x64) = biasRow64 (m ((c : Thread nD τ).loc main_arg2)) := by
  show StableHlo.after hostOps1 (W4 m ρ c) (Proc.devRef .tc main_v44) = _
  dsimp only [hostOps1]
  after_results_simp
  rw [at4_main_arg2 m ρ c]
  exact Cert.LibOneRow.cast_eq_inDim _ _ _

/-- The second region adds the bias and rectifies: the first layer's output. -/
theorem act1 : (W6 m ρ c (Proc.devRef .tc main_v45) : Floats Ideal S100000x64) = (hidden1 (m ((c : Thread nD τ).loc main_arg0)) (m ((c : Thread nD τ).loc main_arg1)) (m ((c : Thread nD τ).loc main_arg2)) (m ((c : Thread nD τ).loc main_arg9))) :=
  (W6_arr m ρ c 2).trans ((Cert.KernelIdeal.Bias1.result (V5 m ρ) c).trans (by
    show Cert.KernelIdeal.Bias1.whole (W5 m ρ c (Proc.devRef .tc main_v43)) (W5 m ρ c (Proc.devRef .tc main_v44)) = _
    rw [agg1 m ρ c, row1 m ρ c]
    rfl))

/-! ## The second layer -/

/-- The third region leaves the second layer's linear map. -/
theorem lin2 : (W7 m ρ c (Proc.devRef .tc main_v46) : Floats Ideal S100000x32) = linear2 (hidden1 (m ((c : Thread nD τ).loc main_arg0)) (m ((c : Thread nD τ).loc main_arg1)) (m ((c : Thread nD τ).loc main_arg2)) (m ((c : Thread nD τ).loc main_arg9))) (m ((c : Thread nD τ).loc main_arg3)) :=
  (W7_arr m ρ c 2).trans ((Cert.KernelIdeal.Linear2.result (V6 m ρ) c).trans (by
    show Cert.KernelIdeal.Linear2.whole (W6 m ρ c (Proc.devRef .tc main_v45)) (W6 m ρ c (Proc.devRef .tc main_arg3)) = _
    rw [act1 m ρ c, at6_main_arg3 m ρ c]
    rfl))

/-- Its messages, aggregated. -/
theorem agg2 : (W8 m ρ c (Proc.devRef .tc main_v59) : Floats Ideal S100000x32) = aggregate32 (m ((c : Thread nD τ).loc main_arg9)) (linear2 (hidden1 (m ((c : Thread nD τ).loc main_arg0)) (m ((c : Thread nD τ).loc main_arg1)) (m ((c : Thread nD τ).loc main_arg2)) (m ((c : Thread nD τ).loc main_arg9))) (m ((c : Thread nD τ).loc main_arg3))) := by
  show StableHlo.after hostOps3 (W7 m ρ c) (Proc.devRef .tc main_v59) = _
  dsimp only [hostOps3]
  after_results_simp
  rw [at7_main_v3 m ρ c, at7_main_v6 m ρ c, at7_main_v29 m ρ c, lin2 m ρ c]
  rfl

/-- The second bias as one row. -/
theorem row2 : (W8 m ρ c (Proc.devRef .tc main_v60) : Floats Ideal S1x32) = biasRow32 (m ((c : Thread nD τ).loc main_arg4)) := by
  show StableHlo.after hostOps3 (W7 m ρ c) (Proc.devRef .tc main_v60) = _
  dsimp only [hostOps3]
  after_results_simp
  rw [at7_main_arg4 m ρ c]
  exact Cert.LibOneRow.cast_eq_inDim _ _ _

/-- The fourth region: the second layer's output. -/
theorem act2 : (W9 m ρ c (Proc.devRef .tc main_v61) : Floats Ideal S100000x32) = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) :=
  (W9_arr m ρ c 2).trans ((Cert.KernelIdeal.Bias3.result (V8 m ρ) c).trans (by
    show Cert.KernelIdeal.Bias3.whole (W8 m ρ c (Proc.devRef .tc main_v59)) (W8 m ρ c (Proc.devRef .tc main_v60)) = _
    rw [agg2 m ρ c, row2 m ρ c]
    rfl))

/-! ## The third layer -/

/-- The fifth region leaves the third layer's linear map. -/
theorem lin3 : (W10 m ρ c (Proc.devRef .tc main_v62) : Floats Ideal S100000x16) = linear3 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) (m ((c : Thread nD τ).loc main_arg5)) :=
  (W10_arr m ρ c 2).trans ((Cert.KernelIdeal.Linear4.result (V9 m ρ) c).trans (by
    show Cert.KernelIdeal.Linear4.whole (W9 m ρ c (Proc.devRef .tc main_v61)) (W9 m ρ c (Proc.devRef .tc main_arg5)) = _
    rw [act2 m ρ c, at9_main_arg5 m ρ c]
    rfl))

/-- Its messages, aggregated. -/
theorem agg3 : (W11 m ρ c (Proc.devRef .tc main_v75) : Floats Ideal S100000x16) = aggregate16 (m ((c : Thread nD τ).loc main_arg9)) (linear3 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) (m ((c : Thread nD τ).loc main_arg5))) := by
  show StableHlo.after hostOps5 (W10 m ρ c) (Proc.devRef .tc main_v75) = _
  dsimp only [hostOps5]
  after_results_simp
  rw [at10_main_v3 m ρ c, at10_main_v6 m ρ c, at10_main_v29 m ρ c, lin3 m ρ c]
  rfl

/-- The third bias as one row. -/
theorem row3 : (W11 m ρ c (Proc.devRef .tc main_v76) : Floats Ideal S1x16) = biasRow16 (m ((c : Thread nD τ).loc main_arg6)) := by
  show StableHlo.after hostOps5 (W10 m ρ c) (Proc.devRef .tc main_v76) = _
  dsimp only [hostOps5]
  after_results_simp
  rw [at10_main_arg6 m ρ c]
  exact Cert.LibOneRow.cast_eq_inDim _ _ _

/-- The sixth region adds the bias, with no rectifier: the features that are pooled. -/
theorem feat : (W12 m ρ c (Proc.devRef .tc main_v77) : Floats Ideal S100000x16) = (features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9))) :=
  (W12_arr m ρ c 2).trans ((Cert.KernelIdeal.Bias5.result (V11 m ρ) c).trans (by
    show Cert.KernelIdeal.Bias5.whole (W11 m ρ c (Proc.devRef .tc main_v75)) (W11 m ρ c (Proc.devRef .tc main_v76)) = _
    rw [agg3 m ρ c, row3 m ρ c]
    rfl))

/-! ## Pooling and the output layer -/

/-- The last host stretch averages each graph's rows. -/
theorem pool : (W13 m ρ c (Proc.devRef .tc main_v89) : Floats Ideal S1000x16) = pooled (m ((c : Thread nD τ).loc main_arg10)) (features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9))) := by
  show StableHlo.after hostOps6 (W12 m ρ c) (Proc.devRef .tc main_v89) = _
  dsimp only [hostOps6]
  after_results_simp
  rw [feat m ρ c, at12_main_arg10 m ρ c]
  rfl

/-- And lays the output layer's bias out as a one-by-one matrix. -/
theorem rowl : (W13 m ρ c (Proc.devRef .tc main_v90) : Floats Ideal S1x1) = biasRow1 (m ((c : Thread nD τ).loc main_arg8)) := by
  show StableHlo.after hostOps6 (W12 m ρ c) (Proc.devRef .tc main_v90) = _
  dsimp only [hostOps6]
  after_results_simp
  rw [at12_main_arg8 m ρ c]
  exact Cert.LibOneRow.cast_eq_inDim _ _ _

/-- THE KERNEL'S RESULT: the last region's output is the network of the argument arrays. -/
theorem result : (W14 m ρ c (Proc.devRef .tc main_v91) : Floats Ideal S1000x1) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W14_arr m ρ c 3).trans ((Cert.KernelIdeal.Output6.result (V13 m ρ) c).trans (by
    show Cert.KernelIdeal.Output6.whole (W13 m ρ c (Proc.devRef .tc main_v89)) (W13 m ρ c (Proc.devRef .tc main_arg7)) (W13 m ρ c (Proc.devRef .tc main_v90)) = _
    rw [pool m ρ c, at13_main_arg7 m ρ c, rowl m ρ c]
    rfl))

end Cert.KernelIdeal.Chain

end
-- ==== Proof.lean ====
/-
  A three-layer graph convolution with mean pooling and a linear output layer, as a tiled kernel program and as the
  plain host program, compute the same function over the extended reals.

  Both programs compute, on the host and with the very same operations, everything that follows the graph's edges:
  the edge endpoints with self loops, the degrees and edge weights, each layer's gather of rows along the edges, their
  weighing and accumulation at the targets, and the pooling. They differ in the dense stretches only. Where the
  reference takes one general product `h · W` of whole arrays, the kernel multiplies ten thousand rows at a time on
  the matrix unit, the factors rounded to bf16 on the way in — the identity over the extended reals —, and a row of a
  product depends on that row of the left factor only. Where the reference adds a bias broadcast over all rows and
  takes the maximum with zero, the kernel does so block by block, entry by entry. So each region's output is the
  reference's operation on whole arrays, and the kernel's result, followed through its seven regions and the host
  stretches between them, is the network `Net.net` of the argument arrays, which is what the reference's run computes.
  No algebraic law of the extended reals is needed, only each operation's definition at an entry, so the finiteness of
  the inputs is not used.

  The three frames are the generated ones (the reference's from its run); the idealization rewrote no operation.
-/
import proofs.«136478_j77360950935889_1_alg».proof.Defs
import proofs.«136478_j77360950935889_1_alg».proof.Proof.Gen.Kernel
import proofs.«136478_j77360950935889_1_alg».proof.Proof.Gen.Kernel.Skeleton
import proofs.«136478_j77360950935889_1_alg».proof.Proof.Gen.Kernel.Launch
import proofs.«136478_j77360950935889_1_alg».proof.Proof.Gen.Kernel.Points
import proofs.«136478_j77360950935889_1_alg».proof.Proof.Gen.Kernel.Frame
import proofs.«136478_j77360950935889_1_alg».proof.Proof.Gen.KernelIdeal
import proofs.«136478_j77360950935889_1_alg».proof.Proof.Gen.KernelIdeal.Skeleton
import proofs.«136478_j77360950935889_1_alg».proof.Proof.Gen.KernelIdeal.Launch
import proofs.«136478_j77360950935889_1_alg».proof.Proof.Gen.KernelIdeal.Points
import proofs.«136478_j77360950935889_1_alg».proof.Proof.Gen.KernelIdeal.Frame
import proofs.«136478_j77360950935889_1_alg».proof.Proof.Gen.ReferenceIdeal
import proofs.«136478_j77360950935889_1_alg».proof.Proof.Gen.Pre_finite_inputs
import proofs.«136478_j77360950935889_1_alg».proof.Proof.RefRun
import proofs.«136478_j77360950935889_1_alg».proof.Proof.RefIsNet
import proofs.«136478_j77360950935889_1_alg».proof.Proof.KernelEnds
import proofs.«136478_j77360950935889_1_alg».proof.Proof.Chain
import Idealize.ShloMosaic.Adequacy
import Idealize.ShloMosaic.Init

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the network of the argument arrays, which agree. -/
theorem algebraic : Cert.algebraic_KernelIdeal_ReferenceIdeal := by
  intro m ρ m' ρ' _ hagree
  refine ⟨fun c => Cert.Net.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.result m ρ c), (h c).2⟩)
      (Cert.KernelIdeal.Ends.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    refine (Cert.ReferenceIdeal.Reads.result_is_net m' c).trans ?_
    rw [h0, h1, h2, h3, h4, h5, h6, h7, h8, h9, h10]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
